-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32x512 : Shape := ⟨3, ![4096, 32, 512]⟩
abbrev S256x512 : Shape := ⟨2, ![256, 512]⟩
abbrev S256x256 : Shape := ⟨2, ![256, 256]⟩
abbrev S256 : Shape := ⟨1, ![256]⟩
abbrev S_ : Shape := ⟨0, ![]⟩

class Facts : Prop where
  bcast_S_S4096x32x512 : S_.BroadcastsInDim S4096x32x512 (![] : Fin 0 → Fin S4096x32x512.rank)
  reducesTo_S4096x32x512_S_d0_1_2 : S4096x32x512.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256x512 .f32) (main_arg12 : FVec F S256x256 .f32) (main_arg13 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x512 .f32 := Host.absf main_arg11
  let main_cst_20 : FVec F S_ .f32 := constant S_ .f32 0x7F800000#32
  let main_v55 : FVec F S256x512 .f32 := broadcastInDim S256x512 ![] bcast_S_S256x512 main_cst_20
  let main_v56 : IVec S256x512 1 := cmpf .olt main_v54 main_v55
  let main_c_21 : IVec S_ 1 := constantI S_ 1 1#1
  let main_v57 : IVec S_ 1 := (fun x v => Host.reduce IntOp.andi x v reducesTo_S256x512_S_d0_1 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg7 : FVec F S256 .f32) (main_arg8 : FVec F S256x512 .f32) (main_arg9 : FVec F S256x256 .f32) (main_arg10 : FVec F S256 .f32) (main_arg11 : FVec F S256x512 .f32) (main_arg12 : FVec F S256x256 .f32) (main_arg13 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x512 .f32 := Host.absf main_arg8
  let main_cst_14 : FVec F S_ .f32 := constant S_ .f32 0x7F800000#32
  let main_v40 : FVec F S256x512 .f32 := broadcastInDim S256x512 ![] bcast_S_S256x512 main_cst_14
  let main_v41 : IVec S256x512 1 := cmpf .olt main_v39 main_v40
  let main_c_15 : IVec S_ 1 := constantI S_ 1 1#1
  let main_v42 : IVec S_ 1 := (fun x v => Host.reduce IntOp.andi x v reducesTo_S256x512_S_d0_1 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_v48 main_v49 main_v50

def fn_part1 {F : FTy → Type} [FloatOps F] (main_arg4 : FVec F S256 .f32) (main_arg5 : FVec F S256x512 .f32) (main_arg6 : FVec F S256x256 .f32) (main_arg7 : FVec F S256 .f32) (main_arg8 : FVec F S256x512 .f32) (main_arg9 : FVec F S256x256 .f32) (main_arg10 : FVec F S256 .f32) (main_arg11 : FVec F S256x512 .f32) (main_arg12 : FVec F S256x256 .f32) (main_arg13 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x32x512 .f32) (main_arg1 : FVec F S4096x32x512 .f32) (main_arg2 : FVec F S256x512 .f32) (main_arg3 : FVec F S256x256 .f32) (main_arg4 : FVec F S256 .f32) (main_arg5 : FVec F S256x512 .f32) (main_arg6 : FVec F S256x256 .f32) (main_arg7 : FVec F S256 .f32) (main_arg8 : FVec F S256x512 .f32) (main_arg9 : FVec F S256x256 .f32) (main_arg10 : FVec F S256 .f32) (main_arg11 : FVec F S256x512 .f32) (main_arg12 : FVec F S256x256 .f32) (main_arg13 : FVec F S256 .f32) : IVec S_ 1 :=
  let main_v0 : FVec F S4096x32x512 .f32 := Host.absf main_arg0
  let main_cst : FVec F S_ .f32 := constant S_ .f32 0x7F800000#32
  let main_v1 : FVec F S4096x32x512 .f32 := broadcastInDim S4096x32x512 ![] bcast_S_S4096x32x512 main_cst
  let main_v2 : IVec S4096x32x512 1 := cmpf .olt main_v0 main_v1
  let main_c : IVec S_ 1 := constantI S_ 1 1#1
  let main_v3 : IVec S_ 1 := (fun x v => Host.reduce IntOp.andi x v reducesTo_S4096x32x512_S_d0_1_2 h_S_) main_v2 main_c
  let main_v4 : FVec F S4096x32x512 .f32 := Host.absf main_arg1
  let main_cst_0 : FVec F S_ .f32 := constant S_ .f32 0x7F800000#32
  let main_v5 : FVec F S4096x32x512 .f32 := broadcastInDim S4096x32x512 ![] bcast_S_S4096x32x512 main_cst_0
  let main_v6 : IVec S4096x32x512 1 := cmpf .olt main_v4 main_v5
  let main_c_1 : IVec S_ 1 := constantI S_ 1 1#1
  let main_v7 : IVec S_ 1 := (fun x v => Host.reduce IntOp.andi x v reducesTo_S4096x32x512_S_d0_1_2 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x32x512 : Shape := ⟨3, ![4096, 32, 512]⟩
abbrev S256x512 : Shape := ⟨2, ![256, 512]⟩
abbrev S256x256 : Shape := ⟨2, ![256, 256]⟩
abbrev S256 : Shape := ⟨1, ![256]⟩
abbrev S768x512 : Shape := ⟨2, ![768, 512]⟩
abbrev S768x256 : Shape := ⟨2, ![768, 256]⟩
abbrev S768 : Shape := ⟨1, ![768]⟩
abbrev S4096x512 : Shape := ⟨2, ![4096, 512]⟩
abbrev S4096x256 : Shape := ⟨2, ![4096, 256]⟩
abbrev S64x32x512 : Shape := ⟨3, ![64, 32, 512]⟩
abbrev S64x512 : Shape := ⟨2, ![64, 512]⟩
abbrev S64x256 : Shape := ⟨2, ![64, 256]⟩
abbrev S64x1x512 : Shape := ⟨3, ![64, 1, 512]⟩
abbrev S64x32x256 : Shape := ⟨3, ![64, 32, 256]⟩
abbrev S512x768 : Shape := ⟨2, ![512, 768]⟩
abbrev S64x768 : Shape := ⟨2, ![64, 768]⟩
abbrev S256x768 : Shape := ⟨2, ![256, 768]⟩
abbrev S1x768 : Shape := ⟨2, ![1, 768]⟩
abbrev S2048x512 : Shape := ⟨2, ![2048, 512]⟩
abbrev S2048x256 : Shape := ⟨2, ![2048, 256]⟩
abbrev S512x256 : Shape := ⟨2, ![512, 256]⟩
abbrev S1x1x256 : Shape := ⟨3, ![1, 1, 256]⟩

abbrev nBuf : Space → Nat
  | .hbm => 19
  | .vmem => 14
  | .smem => 0
  | _ => 0

abbrev bufTy : (tb : Table) → Fin (tcTables nBuf tb) → BufTy
  | .hbm, ⟨0, _⟩ => ⟨S4096x32x512, .f32⟩
  | .hbm, ⟨1, _⟩ => ⟨S4096x32x512, .f32⟩
  | .hbm, ⟨2, _⟩ => ⟨S256x512, .f32⟩
  | .hbm, ⟨3, _⟩ => ⟨S256x256, .f32⟩
  | .hbm, ⟨4, _⟩ => ⟨S256, .f32⟩
  | .hbm, ⟨5, _⟩ => ⟨S256x512, .f32⟩
  | .hbm, ⟨6, _⟩ => ⟨S256x256, .f32⟩
  | .hbm, ⟨7, _⟩ => ⟨S256, .f32⟩
  | .hbm, ⟨8, _⟩ => ⟨S256x512, .f32⟩
  | .hbm, ⟨9, _⟩ => ⟨S256x256, .f32⟩
  | .hbm, ⟨10, _⟩ => ⟨S256, .f32⟩
  | .hbm, ⟨11, _⟩ => ⟨S256x512, .f32⟩
  | .hbm, ⟨12, _⟩ => ⟨S256x256, .f32⟩
  | .hbm, ⟨13, _⟩ => ⟨S256, .f32⟩
  | .hbm, ⟨14, _⟩ => ⟨S768x512, .f32⟩
  | .hbm, ⟨15, _⟩ => ⟨S768x256, .f32⟩
  | .hbm, ⟨16, _⟩ => ⟨S768, .f32⟩
  | .hbm, ⟨17, _⟩ => ⟨S4096x512, .f32⟩
  | .hbm, ⟨18, _⟩ => ⟨S4096x256, .f32⟩
  | .local _ .vmem, ⟨0, _⟩ => ⟨S64x32x512, .f32⟩
  | .local _ .vmem, ⟨1, _⟩ => ⟨S64x32x512, .f32⟩
  | .local _ .vmem, ⟨2, _⟩ => ⟨S64x32x512, .f32⟩
  | .local _ .vmem, ⟨3, _⟩ => ⟨S64x32x512, .f32⟩
  | .local _ .vmem, ⟨4, _⟩ => ⟨S768x512, .f32⟩
  | .local _ .vmem, ⟨5, _⟩ => ⟨S768x256, .f32⟩
  | .local _ .vmem, ⟨6, _⟩ => ⟨S768, .f32⟩
  | .local _ .vmem, ⟨7, _⟩ => ⟨S256x512, .f32⟩
  | .local _ .vmem, ⟨8, _⟩ => ⟨S256x256, .f32⟩
  | .local _ .vmem, ⟨9, _⟩ => ⟨S256, .f32⟩
  | .local _ .vmem, ⟨10, _⟩ => ⟨S64x512, .f32⟩
  | .local _ .vmem, ⟨11, _⟩ => ⟨S64x512, .f32⟩
  | .local _ .vmem, ⟨12, _⟩ => ⟨S64x256, .f32⟩
  | .local _ .vmem, ⟨13, _⟩ => ⟨S64x256, .f32⟩
  | _, _ => ⟨S4096x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  concatenates_S256x512_S256x512_S256x512_S768x512_d0 : Shape.Concatenates [S256x512, S256x512, S256x512] S768x512 0
  concatenates_S256x256_S256x256_S256x256_S768x256_d0 : Shape.Concatenates [S256x256, S256x256, S256x256] S768x256 0
  concatenates_S256_S256_S256_S768_d0 : Shape.Concatenates [S256, S256, S256] S768 0
  inb_S64x32x512_S64x32x512_0_0_0 : ∀ a, (![0, 0, 0] : Fin 3 → Nat) a + S64x32x512.size a ≤ S64x32x512.size a
  h_S64x32x512 : 0 < S64x32x512.numel
  slices_S64x32x512_o0_0_0_S64x1x512 : S64x32x512.Slices ![0, 0, 0] S64x1x512
  shapeCasts_S64x1x512_S64x512 : S64x1x512.ShapeCasts S64x512
  inb_S64x32x512_S64x32x256_0_0_0 : ∀ a, (![0, 0, 0] : Fin 3 → Nat) a + S64x32x256.size a ≤ S64x32x512.size a
  h_S64x32x256 : 0 < S64x32x256.numel
  inb_S64x32x512_S64x32x256_0_0_256 : ∀ a, (![0, 0, 256] : Fin 3 → Nat) a + S64x32x256.size a ≤ S64x32x512.size a
  reduces_S64x32x256_S64x256 : S64x32x256.Reduces [1] S64x256
  bitsLt_bf16_f32 : FTy.bits .bf16 < FTy.bits .f32
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S768_S768_0 : ∀ a, (![0] : Fin 1 → Nat) a + S768.size a ≤ S768.size a
  h_S768 : 0 < S768.numel
  shapeCasts_S768_S768 : S768.ShapeCasts S768
  transposes_S768x512_p1_0_S512x768 : S768x512.Transposes [1, 0] S512x768
  transposes_S768x256_p1_0_S256x768 : S768x256.Transposes [1, 0] S256x768
  shapeCasts_S768_S1x768 : S768.ShapeCasts S1x768
  broadcasts_S1x768_S64x768 : S1x768.Broadcasts S64x768
  slices_S64x768_o0_0_S64x256 : S64x768.Slices ![0, 0] S64x256
  slices_S64x768_o0_256_S64x256 : S64x768.Slices ![0, 256] S64x256
  slices_S64x768_o0_512_S64x256 : S64x768.Slices ![0, 512] S64x256
  shapeCasts_S64x32x512_S2048x512 : S64x32x512.ShapeCasts S2048x512
  shapeCasts_S64x32x256_S2048x256 : S64x32x256.ShapeCasts S2048x256
  inb_S256x512_S256x512_0_0 : ∀ a, (![0, 0] : Fin 2 → Nat) a + S256x512.size a ≤ S256x512.size a
  h_S256x512 : 0 < S256x512.numel
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  transposes_S256x512_p1_0_S512x256 : S256x512.Transposes [1, 0] S512x256
  transposes_S256x256_p1_0_S256x256 : S256x256.Transposes [1, 0] S256x256
  shapeCasts_S2048x256_S64x32x256 : S2048x256.ShapeCasts S64x32x256
  shapeCasts_S256_S1x1x256 : S256.ShapeCasts S1x1x256
  broadcasts_S1x1x256_S64x32x256 : S1x1x256.Broadcasts S64x32x256
  inb_S64x512_S64x256_0_0 : ∀ a, (![0, 0] : Fin 2 → Nat) a + S64x256.size a ≤ S64x512.size a
  h_S64x256 : 0 < S64x256.numel
  inb_S64x512_S64x256_0_256 : ∀ a, (![0, 256] : Fin 2 → Nat) a + S64x256.size a ≤ S64x512.size a
  inb_S64x256_S64x256_0_0 : ∀ a, (![0, 0] : Fin 2 → Nat) a + S64x256.size a ≤ S64x256.size a
  dot_S64x512_S512x768_S64x768_1_0_0_1_n_n_wf : DotDims.WF S64x512 S512x768 S64x768 [1] [0] [0] [1] [] []
  dot_S64x256_S256x768_S64x768_1_0_0_1_n_n_wf : DotDims.WF S64x256 S256x768 S64x768 [1] [0] [0] [1] [] []
  dot_S2048x512_S512x256_S2048x256_1_0_0_1_n_n_wf : DotDims.WF S2048x512 S512x256 S2048x256 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32x512.size a ≤ S4096x32x512.size a
  hwx0_0 : ∀ i : grid0.Coords, EltTy.bits .f32 = 32 ∨ (Rect.block (s := S4096x32x512) S64x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x32x512.size a ≤ S4096x32x512.size a
  hwx0_1 : ∀ i : grid0.Coords, EltTy.bits .f32 = 32 ∨ (Rect.block (s := S4096x32x512) S64x32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x512.size a ≤ S768x512.size a
  hwx0_2 : ∀ i : grid0.Coords, EltTy.bits .f32 = 32 ∨ (Rect.block (s := S768x512) S768x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x256.size a ≤ S768x256.size a
  hwx0_3 : ∀ i : grid0.Coords, EltTy.bits .f32 = 32 ∨ (Rect.block (s := S768x256) S768x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .f32 = 32 ∨ (Rect.block (s := S256x512) S256x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x512.size a ≤ S4096x512.size a
  hwx0_8 : ∀ i : grid0.Coords, EltTy.bits .f32 = 32 ∨ (Rect.block (s := S4096x512) S64x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x256.size a ≤ S4096x256.size a
  hwx0_9 : ∀ i : grid0.Coords, EltTy.bits .f32 = 32 ∨ (Rect.block (s := S4096x256) S64x256.size (cc0_transform_9 i) (hinb0_9 i)).WholeWords (EltTy.packing .f32)

variable [Facts₀]

def dot_S64x512_S512x768_S64x768_1_0_0_1_n_n : DotDims S64x512 S512x768 S64x768 where
  lhsContracting := [1]
  rhsContracting := [0]
  lhsNonContracting := [0]
  rhsNonContracting := [1]
  lhsBatch := []
  rhsBatch := []
  wf := dot_S64x512_S512x768_S64x768_1_0_0_1_n_n_wf
def dot_S64x256_S256x768_S64x768_1_0_0_1_n_n : DotDims S64x256 S256x768 S64x768 where
  lhsContracting := [1]
  rhsContracting := [0]
  lhsNonContracting := [0]
  rhsNonContracting := [1]
  lhsBatch := []
  rhsBatch := []
  wf := dot_S64x256_S256x768_S64x768_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S64x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S768x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S768x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S64x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S64x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x32x512 : Shape := ⟨3, ![4096, 32, 512]⟩
abbrev S256x512 : Shape := ⟨2, ![256, 512]⟩
abbrev S256x256 : Shape := ⟨2, ![256, 256]⟩
abbrev S256 : Shape := ⟨1, ![256]⟩
abbrev S4096x1x512 : Shape := ⟨3, ![4096, 1, 512]⟩
abbrev S4096x512 : Shape := ⟨2, ![4096, 512]⟩
abbrev S4096x32x256 : Shape := ⟨3, ![4096, 32, 256]⟩
abbrev S_ : Shape := ⟨0, ![]⟩
abbrev S4096x256 : Shape := ⟨2, ![4096, 256]⟩
abbrev S512x256 : Shape := ⟨2, ![512, 256]⟩
abbrev S1x256 : Shape := ⟨2, ![1, 256]⟩
abbrev S1x1x256 : Shape := ⟨3, ![1, 1, 256]⟩

abbrev nBuf : Space → Nat
  | .hbm => 83
  | .vmem => 0
  | .smem => 0
  | _ => 0

abbrev bufTy : (tb : Table) → Fin (tcTables nBuf tb) → BufTy
  | .hbm, ⟨0, _⟩ => ⟨S4096x32x512, .f32⟩
  | .hbm, ⟨1, _⟩ => ⟨S4096x32x512, .f32⟩
  | .hbm, ⟨2, _⟩ => ⟨S256x512, .f32⟩
  | .hbm, ⟨3, _⟩ => ⟨S256x256, .f32⟩
  | .hbm, ⟨4, _⟩ => ⟨S256, .f32⟩
  | .hbm, ⟨5, _⟩ => ⟨S256x512, .f32⟩
  | .hbm, ⟨6, _⟩ => ⟨S256x256, .f32⟩
  | .hbm, ⟨7, _⟩ => ⟨S256, .f32⟩
  | .hbm, ⟨8, _⟩ => ⟨S256x512, .f32⟩
  | .hbm, ⟨9, _⟩ => ⟨S256x256, .f32⟩
  | .hbm, ⟨10, _⟩ => ⟨S256, .f32⟩
  | .hbm, ⟨11, _⟩ => ⟨S256x512, .f32⟩
  | .hbm, ⟨12, _⟩ => ⟨S256x256, .f32⟩
  | .hbm, ⟨13, _⟩ => ⟨S256, .f32⟩
  | .hbm, ⟨14, _⟩ => ⟨S4096x1x512, .f32⟩
  | .hbm, ⟨15, _⟩ => ⟨S4096x512, .f32⟩
  | .hbm, ⟨16, _⟩ => ⟨S4096x32x256, .f32⟩
  | .hbm, ⟨17, _⟩ => ⟨S4096x32x256, .f32⟩
  | .hbm, ⟨18, _⟩ => ⟨S_, .f32⟩
  | .hbm, ⟨19, _⟩ => ⟨S4096x256, .f32⟩
  | .hbm, ⟨20, _⟩ => ⟨S512x256, .f32⟩
  | .hbm, ⟨21, _⟩ => ⟨S4096x256, .f32⟩
  | .hbm, ⟨22, _⟩ => ⟨S256x256, .f32⟩
  | .hbm, ⟨23, _⟩ => ⟨S4096x256, .f32⟩
  | .hbm, ⟨24, _⟩ => ⟨S4096x256, .f32⟩
  | .hbm, ⟨25, _⟩ => ⟨S1x256, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S4096x256, .f32⟩
  | .hbm, ⟨32, _⟩ => ⟨S4096x256, .f32⟩
  | .hbm, ⟨33, _⟩ => ⟨S_, .f32⟩
  | .hbm, ⟨34, _⟩ => ⟨S4096x256, .f32⟩
  | .hbm, ⟨35, _⟩ => ⟨S4096x256, .f32⟩
  | .hbm, ⟨36, _⟩ => ⟨S4096x32x256, .f32⟩
  | .hbm, ⟨37, _⟩ => ⟨S4096x32x256, .f32⟩
  | .hbm, ⟨38, _⟩ => ⟨S4096x32x256, .f32⟩
  | .hbm, ⟨39, _⟩ => ⟨S1x1x256, .f32⟩
  | .hbm, ⟨40, _⟩ => ⟨S4096x32x256, .f32⟩
  | .hbm, ⟨41, _⟩ => ⟨S4096x32x256, .f32⟩
  | .hbm, ⟨42, _⟩ => ⟨S4096x32x256, .f32⟩
  | .hbm, ⟨43, _⟩ => ⟨S4096x32x256, .f32⟩
  | .hbm, ⟨44, _⟩ => ⟨S_, .f32⟩
  | .hbm, ⟨45, _⟩ => ⟨S4096x32x256, .f32⟩
  | .hbm, ⟨46, _⟩ => ⟨S4096x32x256, .f32⟩
  | .hbm, ⟨47, _⟩ => ⟨S_, .f32⟩
  | .hbm, ⟨48, _⟩ => ⟨S4096x32x256, .f32⟩
  | .hbm, ⟨49, _⟩ => ⟨S4096x32x256, .f32⟩
  | .hbm, ⟨50, _⟩ => ⟨S512x256, .f32⟩
  | .hbm, ⟨51, _⟩ => ⟨S4096x256, .f32⟩
  | .hbm, ⟨52, _⟩ => ⟨S256x256, .f32⟩
  | .hbm, ⟨53, _⟩ => ⟨S4096x256, .f32⟩
  | .hbm, ⟨54, _⟩ => ⟨S4096x256, .f32⟩
  | .hbm, ⟨55, _⟩ => ⟨S1x256, .f32⟩
  | .hbm, ⟨56, _⟩ => ⟨S4096x256, .f32⟩
  | .hbm, ⟨57, _⟩ => ⟨S4096x256, .f32⟩
  | .hbm, ⟨58, _⟩ => ⟨S4096x256, .f32⟩
  | .hbm, ⟨59, _⟩ => ⟨S4096x256, .f32⟩
  | .hbm, ⟨60, _⟩ => ⟨S_, .f32⟩
  | .hbm, ⟨61, _⟩ => ⟨S4096x256, .f32⟩
  | .hbm, ⟨62, _⟩ => ⟨S4096x256, .f32⟩
  | .hbm, ⟨63, _⟩ => ⟨S_, .f32⟩
  | .hbm, ⟨64, _⟩ => ⟨S4096x256, .f32⟩
  | .hbm, ⟨65, _⟩ => ⟨S4096x256, .f32⟩
  | .hbm, ⟨66, _⟩ => ⟨S512x256, .f32⟩
  | .hbm, ⟨67, _⟩ => ⟨S4096x256, .f32⟩
  | .hbm, ⟨68, _⟩ => ⟨S256x256, .f32⟩
  | .hbm, ⟨69, _⟩ => ⟨S4096x256, .f32⟩
  | .hbm, ⟨70, _⟩ => ⟨S4096x256, .f32⟩
  | .hbm, ⟨71, _⟩ => ⟨S1x256, .f32⟩
  | .hbm, ⟨72, _⟩ => ⟨S4096x256, .f32⟩
  | .hbm, ⟨73, _⟩ => ⟨S4096x256, .f32⟩
  | .hbm, ⟨74, _⟩ => ⟨S4096x256, .f32⟩
  | .hbm, ⟨75, _⟩ => ⟨S4096x256, .f32⟩
  | .hbm, ⟨76, _⟩ => ⟨S4096x32x256, .f32⟩
  | .hbm, ⟨77, _⟩ => ⟨S_, .f32⟩
  | .hbm, ⟨78, _⟩ => ⟨S4096x256, .f32⟩
  | .hbm, ⟨79, _⟩ => ⟨S4096x256, .f32⟩
  | .hbm, ⟨80, _⟩ => ⟨S4096x256, .f32⟩
  | .hbm, ⟨81, _⟩ => ⟨S4096x256, .f32⟩
  | .hbm, ⟨82, _⟩ => ⟨S4096x512, .f32⟩
  | _, _ => ⟨S4096x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_6 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]

class Facts₀ : Prop where
  slices_S4096x32x512_S4096x1x512_0_0_0 : S4096x32x512.Slices ![0, 0, 0] S4096x1x512
  shapeCasts_S4096x1x512_S4096x512 : S4096x1x512.ShapeCasts S4096x512
  slices_S4096x32x512_S4096x32x256_0_0_0 : S4096x32x512.Slices ![0, 0, 0] S4096x32x256
  slices_S4096x32x512_S4096x32x256_0_0_256 : S4096x32x512.Slices ![0, 0, 256] S4096x32x256
  reducesTo_S4096x32x256_S4096x256_d1 : S4096x32x256.ReducesTo [1] S4096x256
  h_S_ : 0 < S_.numel
  transposes_S256x512_S512x256_1_0 : S256x512.Transposes [1, 0] S512x256
  transposes_S256x256_S256x256_1_0 : S256x256.Transposes [1, 0] S256x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S256_S1x1x256_2 : S256.BroadcastsInDim S1x1x256 (![2] : Fin 1 → Fin S1x1x256.rank)
  bcast_S1x1x256_S4096x32x256_0_1_2 : S1x1x256.BroadcastsInDim S4096x32x256 (![0, 1, 2] : Fin 3 → Fin S4096x32x256.rank)
  bcast_S_S4096x32x256 : S_.BroadcastsInDim S4096x32x256 (![] : Fin 0 → Fin S4096x32x256.rank)
  concatenates_S4096x256_S4096x256_S4096x512_d1 : Shape.Concatenates [S4096x256, S4096x256] S4096x512 1
  dot_S4096x512_S512x256_S4096x256_1_0_0_1_n_n_wf : DotDims.WF S4096x512 S512x256 S4096x256 [1] [0] [0] [1] [] []
  dot_S4096x256_S256x256_S4096x256_1_0_0_1_n_n_wf : DotDims.WF S4096x256 S256x256 S4096x256 [1] [0] [0] [1] [] []
  dot_S4096x32x512_S256x512_S4096x32x256_2_1_01_0_n_n_wf : DotDims.WF S4096x32x512 S256x512 S4096x32x256 [2] [1] [0, 1] [0] [] []
  dot_S4096x32x256_S256x256_S4096x32x256_2_1_01_0_n_n_wf : DotDims.WF S4096x32x256 S256x256 S4096x32x256 [2] [1] [0, 1] [0] [] []

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x32x512_S256x512_S4096x32x256_2_1_01_0_n_n : DotDims S4096x32x512 S256x512 S4096x32x256 where
  lhsContracting := [2]
  rhsContracting := [1]
  lhsNonContracting := [0, 1]
  rhsNonContracting := [0]
  lhsBatch := []
  rhsBatch := []
  wf := dot_S4096x32x512_S256x512_S4096x32x256_2_1_01_0_n_n_wf
def dot_S4096x32x256_S256x256_S4096x32x256_2_1_01_0_n_n : DotDims S4096x32x256 S256x256 S4096x32x256 where
  lhsContracting := [2]
  rhsContracting := [1]
  lhsNonContracting := [0, 1]
  rhsNonContracting := [0]
  lhsBatch := []
  rhsBatch := []
  wf := dot_S4096x32x256_S256x256_S4096x32x256_2_1_01_0_n_n_wf

class Facts : Prop extends Facts₀ where

variable [Facts]
-- ==== Proof.CellFrame.lean ====
/-
  The frame of the kernel: run on the TensorCore, the program terminates, faults nowhere and leaves its fourteen argument
  arrays as it found them; and, beyond that, each of its two result arrays ends at what the launch computes from what the
  body leaves in the result's staging buffer at each of the 64 grid points.

  The program first joins the three node-level input weights (and recurrent weights, and biases) row-wise into one
  768-row array each, then launches the body over 64 blocks of 64 nodes. At a point the body reads its eight input blocks
  (the node rows, the children rows, the three joined arrays, the forget gate's three arrays), and writes the hidden state
  into the left half of the first result's block, the memory cell into its right half, and the children's summed hidden
  states into the second result's block. The two halves tile the first block, so after the body that buffer holds the
  overlay of the two stored values, whatever it held before.
-/
import proofs.«173685_j4526895530471_2_alg».proof.Proof.Gen.KernelIdeal.Launch
import proofs.«173685_j4526895530471_2_alg».proof.Proof.Gen.KernelIdeal.Skeleton
import proofs.«173685_j4526895530471_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- What core `c`'s buffers hold when the body is launched: the memory as given, with the three joined arrays written. -/
abbrev V (c : Dev nD) (b : Ref sig .tc) : Buf (Elt F) ((c : Thread nD τ).loc b) :=
  StableHlo.after hostOps0 (fun b => m (c, b)) b

/-- The three joins allocate nothing. -/
theorem joins_fresh : (hostOps0 : List (HloOp τ sig (Elt F))).Forall fun op => op.fresh = ∅ := by
  simp only [List.Forall]; repeat' constructor

/-- The program is the three joins, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub joins_fresh main_chain

/-! The joins write three buffers of their own, so each argument array is launched as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, Finset.mem_singleton]
    repeat' apply And.intro
    all_goals exact StableHlo.devRef_ne_of_ne (by decide)))

/-! ## A window's block at a point -/

/-- Window `w`'s block at point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point — fetched there, or fetched at an earlier
    point whose block index is the same and left in place by the body since. -/
theorem found0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem found5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem found6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem found7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame from a run to the launch's post -/

/-- From a run that ends with every windowed array at what the launch computes and every other buffer as launched: the
    argument arrays end as given (a windowed input is never written back; the others are no window's). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The rectangles the body reads and writes -/

/-- The whole block of node rows (and of children rows). -/
abbrev rZ : Rect S64x32x512 := Rect.unit (s := S64x32x512) ![0, 0, 0] S64x32x512.size inb_S64x32x512_S64x32x512_0_0_0
/-- The left half of the children's rows: their hidden states. -/
abbrev rHk : Rect S64x32x512 := Rect.unit (s := S64x32x512) ![0, 0, 0] S64x32x256.size inb_S64x32x512_S64x32x256_0_0_0
/-- The right half of the children's rows: their memory cells. -/
abbrev rCk : Rect S64x32x512 := Rect.unit (s := S64x32x512) ![0, 0, 256] S64x32x256.size inb_S64x32x512_S64x32x256_0_0_256
abbrev rW3 : Rect S768x512 := Rect.unit (s := S768x512) ![0, 0] S768x512.size inb_S768x512_S768x512_0_0
abbrev rU3 : Rect S768x256 := Rect.unit (s := S768x256) ![0, 0] S768x256.size inb_S768x256_S768x256_0_0
abbrev rB3 : Rect S768 := Rect.unit (s := S768) ![0] S768.size inb_S768_S768_0
abbrev rWf : Rect S256x512 := Rect.unit (s := S256x512) ![0, 0] S256x512.size inb_S256x512_S256x512_0_0
abbrev rUf : Rect S256x256 := Rect.unit (s := S256x256) ![0, 0] S256x256.size inb_S256x256_S256x256_0_0
abbrev rBf : Rect S256 := Rect.unit (s := S256) ![0] S256.size inb_S256_S256_0
/-- The left half of the first result's block: the hidden state. -/
abbrev rOutH : Rect S64x512 := Rect.unit (s := S64x512) ![0, 0] S64x256.size inb_S64x512_S64x256_0_0
/-- The right half of the first result's block: the memory cell. -/
abbrev rOutC : Rect S64x512 := Rect.unit (s := S64x512) ![0, 256] S64x256.size inb_S64x512_S64x256_0_256
/-- The whole of the second result's block. -/
abbrev rSum : Rect S64x256 := Rect.unit (s := S64x256) ![0, 0] S64x256.size inb_S64x256_S64x256_0_0

/-! ## What the body stores, from the blocks it reads -/

/-- The memory cell the body stores, from the eight input blocks. -/
def cellOf (x0 : Vec F S64x32x512 .f32) (x1 : Vec F S64x32x512 .f32) (x2 : Vec F S768x512 .f32) (x3 : Vec F S768x256 .f32) (x4 : Vec F S768 .f32) (x5 : Vec F S256x512 .f32) (x6 : Vec F S256x256 .f32) (x7 : Vec F S256 .f32) : FVec F S64x256 .f32 :=
  k0_pay1 (View.ld x1 rCk)
    (k0_pay5 (View.ld x0 rZ) (View.ld x1 rHk) (View.ld x2 rW3) (View.ld x3 rU3) (View.ld x4 rB3))
    (k0_pay7 (View.ld x0 rZ) (View.ld x1 rHk) (View.ld x2 rW3) (View.ld x3 rU3) (View.ld x4 rB3))
    (k0_pay8 (View.ld x0 rZ)) (k0_pay9 (View.ld x1 rHk)) (k0_pay10 (View.ld x5 rWf)) (k0_pay11 (View.ld x6 rUf)) (View.ld x7 rBf)

/-- The hidden state the body stores, from the eight input blocks. -/
def hiddenOf (x0 : Vec F S64x32x512 .f32) (x1 : Vec F S64x32x512 .f32) (x2 : Vec F S768x512 .f32) (x3 : Vec F S768x256 .f32) (x4 : Vec F S768 .f32) (x5 : Vec F S256x512 .f32) (x6 : Vec F S256x256 .f32) (x7 : Vec F S256 .f32) : FVec F S64x256 .f32 :=
  k0_pay2 (View.ld x1 rCk)
    (k0_pay5 (View.ld x0 rZ) (View.ld x1 rHk) (View.ld x2 rW3) (View.ld x3 rU3) (View.ld x4 rB3))
    (k0_pay6 (View.ld x0 rZ) (View.ld x1 rHk) (View.ld x2 rW3) (View.ld x3 rU3) (View.ld x4 rB3))
    (k0_pay7 (View.ld x0 rZ) (View.ld x1 rHk) (View.ld x2 rW3) (View.ld x3 rU3) (View.ld x4 rB3))
    (k0_pay8 (View.ld x0 rZ)) (k0_pay9 (View.ld x1 rHk)) (k0_pay10 (View.ld x5 rWf)) (k0_pay11 (View.ld x6 rUf)) (View.ld x7 rBf)

/-- The first result's staging buffer after the body: the memory cell over the right half, over the hidden state over the
    left half (the later store first). -/
def outBlock (x0 : Vec F S64x32x512 .f32) (x1 : Vec F S64x32x512 .f32) (x2 : Vec F S768x512 .f32) (x3 : Vec F S768x256 .f32) (x4 : Vec F S768 .f32) (x5 : Vec F S256x512 .f32) (x6 : Vec F S256x256 .f32) (x7 : Vec F S256 .f32) : Vec F S64x512 .f32 :=
  View.canon [⟨rOutC, cellOf x0 x1 x2 x3 x4 x5 x6 x7⟩, ⟨rOutH, hiddenOf x0 x1 x2 x3 x4 x5 x6 x7⟩]

/-- The second result's staging buffer after the body: the children's hidden states summed. -/
def sumBlock (x1 : Vec F S64x32x512 .f32) : Vec F S64x256 .f32 :=
  View.canon [⟨rSum, k0_pay3 (View.ld x1 rHk)⟩]

/-- The two halves tile the first result's block. -/
theorem halves_cover (p0 p1 : Vec F S64x256 .f32) (y : S64x512.Idx) :
    ∃ pc ∈ ([⟨rOutC, p0⟩, ⟨rOutH, p1⟩] : List (View.Piece (Elt F) S64x512 .f32)), y ∈ pc.1.set :=
  View.cover_of_tiled [⟨rOutC, p0⟩, ⟨rOutH, p1⟩] S64x256.size (by rfl) y

/-- The one store covers the second result's block. -/
theorem sum_cover (p0 : Vec F S64x256 .f32) (y : S64x256.Idx) :
    ∃ pc ∈ ([⟨rSum, p0⟩] : List (View.Piece (Elt F) S64x256 .f32)), y ∈ pc.1.set :=
  View.cover_of_tiled [⟨rSum, p0⟩] S64x256.size (by rfl) y

/-! ## The body's triple -/

set_option maxHeartbeats 4000000 in
/-- The body on whole staging buffers — the eight inputs' at contents `x0 … x7`, the two results' at anything — runs to
    its end leaving the inputs' as they were and the results' at `outBlock` and `sumBlock` of the inputs'. -/
theorem sound_kernel (c : Dev nD) (E : Set ℕ) (i : grid0.Coords) (a0 : Memref sig .tc .vmem S64x32x512 .f32) (h0 : a0.IsWhole) (a1 : Memref sig .tc .vmem S64x32x512 .f32) (h1 : a1.IsWhole) (a2 : Memref sig .tc .vmem S768x512 .f32) (h2 : a2.IsWhole) (a3 : Memref sig .tc .vmem S768x256 .f32) (h3 : a3.IsWhole) (a4 : Memref sig .tc .vmem S768 .f32) (h4 : a4.IsWhole) (a5 : Memref sig .tc .vmem S256x512 .f32) (h5 : a5.IsWhole) (a6 : Memref sig .tc .vmem S256x256 .f32) (h6 : a6.IsWhole) (a7 : Memref sig .tc .vmem S256 .f32) (h7 : a7.IsWhole) (a8 : Memref sig .tc .vmem S64x512 .f32) (h8 : a8.IsWhole) (a9 : Memref sig .tc .vmem S64x256 .f32) (h9 : a9.IsWhole)
    (x0 : Vec F S64x32x512 .f32) (x1 : Vec F S64x32x512 .f32) (x2 : Vec F S768x512 .f32) (x3 : Vec F S768x256 .f32) (x4 : Vec F S768 .f32) (x5 : Vec F S256x512 .f32) (x6 : Vec F S256x256 .f32) (x7 : Vec F S256 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
        ∗ (∃ d, owns (c : Thread nD τ) a8 fullShare d) ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) a8 fullShare (outBlock x0 x1 x2 x3 x4 x5 x6 x7) ∗ owns (c : Thread nD τ) a9 fullShare (sumBlock x1)) -∗ K ⟨⟩))
      ⊢ wp frame (wpE (defs₀ (F := F)) Variants.none c none) E (cc0__tree_lstm_kernel i a0 h0 a1 h1 a2 h2 a3 h3 a4 h4 a5 h5 a6 h6 a7 h7 a8 h8 a9 h9) K := by
  simp only [cc0__tree_lstm_kernel_eq_skeleton]; unfold cc0__tree_lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (halves_cover _ _)
  iexists _; isplitr
  swap; · iexact H9
  ipureintro
  exact View.read_writes_eq_canon _ _ _ (sum_cover _)

/-! ## The launch's proof data -/

/-- On core `c`: the arrays as launched; after the body at point `t` each input's buffer at its block, the first
    result's at `outBlock` and the second's at `sumBlock` of the input blocks; nothing else kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
    | ⟨9, _⟩ => sumBlock (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outBlock (iblk m c 0 t) (iblk m c 1 t) (iblk m c 2 t) (iblk m c 3 t) (iblk m c 4 t) (iblk m c 5 t) (iblk m c 6 t) (iblk m c 7 t) := by dsimp only [dats]
theorem after9 (c : Dev nD) (t : Fin cfg0.N) : (dats m 0 c).after 9 t = sumBlock (iblk m c 1 t) := by dsimp only [dats]

theorem found0 (c : Dev nD) (t : Fin cfg0.N) (d) : (dats m 0 c).before 0 t d = iblk m c 0 t :=
  found0_of m (dats m 0 c) (A_eq m c 0) (after0 m c) t d
theorem found1 (c : Dev nD) (t : Fin cfg0.N) (d) : (dats m 0 c).before 1 t d = iblk m c 1 t :=
  found1_of m (dats m 0 c) (A_eq m c 1) (after1 m c) t d
theorem found2 (c : Dev nD) (t : Fin cfg0.N) (d) : (dats m 0 c).before 2 t d = iblk m c 2 t :=
  found2_of m (dats m 0 c) (A_eq m c 2) (after2 m c) t d
theorem found3 (c : Dev nD) (t : Fin cfg0.N) (d) : (dats m 0 c).before 3 t d = iblk m c 3 t :=
  found3_of m (dats m 0 c) (A_eq m c 3) (after3 m c) t d
theorem found4 (c : Dev nD) (t : Fin cfg0.N) (d) : (dats m 0 c).before 4 t d = iblk m c 4 t :=
  found4_of m (dats m 0 c) (A_eq m c 4) (after4 m c) t d
theorem found5 (c : Dev nD) (t : Fin cfg0.N) (d) : (dats m 0 c).before 5 t d = iblk m c 5 t :=
  found5_of m (dats m 0 c) (A_eq m c 5) (after5 m c) t d
theorem found6 (c : Dev nD) (t : Fin cfg0.N) (d) : (dats m 0 c).before 6 t d = iblk m c 6 t :=
  found6_of m (dats m 0 c) (A_eq m c 6) (after6 m c) t d
theorem found7 (c : Dev nD) (t : Fin cfg0.N) (d) : (dats m 0 c).before 7 t d = iblk m c 7 t :=
  found7_of m (dats m 0 c) (A_eq m c 7) (after7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- At any point the inputs' buffers hold their blocks, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6, found7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program on the TensorCore terminates, and ends with every windowed array at what
    the launch computes from the proof data and every other buffer as launched. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end and the fourteen argument arrays end as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Cell

end
-- ==== Proof.CellFrameBits.lean ====
/-
  The frame of the kernel: run on the TensorCore, the program terminates, faults nowhere and leaves its fourteen argument
  arrays as it found them; and, beyond that, each of its two result arrays ends at what the launch computes from what the
  body leaves in the result's staging buffer at each of the 64 grid points.

  The program first joins the three node-level input weights (and recurrent weights, and biases) row-wise into one
  768-row array each, then launches the body over 64 blocks of 64 nodes. At a point the body reads its eight input blocks
  (the node rows, the children rows, the three joined arrays, the forget gate's three arrays), and writes the hidden state
  into the left half of the first result's block, the memory cell into its right half, and the children's summed hidden
  states into the second result's block. The two halves tile the first block, so after the body that buffer holds the
  overlay of the two stored values, whatever it held before.
-/
import proofs.«173685_j4526895530471_2_alg».proof.Proof.Gen.Kernel.Launch
import proofs.«173685_j4526895530471_2_alg».proof.Proof.Gen.Kernel.Skeleton
import proofs.«173685_j4526895530471_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- What core `c`'s buffers hold when the body is launched: the memory as given, with the three joined arrays written. -/
abbrev V (c : Dev nD) (b : Ref sig .tc) : Buf (Elt F) ((c : Thread nD τ).loc b) :=
  StableHlo.after hostOps0 (fun b => m (c, b)) b

/-- The three joins allocate nothing. -/
theorem joins_fresh : (hostOps0 : List (HloOp τ sig (Elt F))).Forall fun op => op.fresh = ∅ := by
  simp only [List.Forall]; repeat' constructor

/-- The program is the three joins, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub joins_fresh main_chain

/-! The joins write three buffers of their own, so each argument array is launched as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, Finset.mem_singleton]
    repeat' apply And.intro
    all_goals exact StableHlo.devRef_ne_of_ne (by decide)))

/-! ## A window's block at a point -/

/-- Window `w`'s block at point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point — fetched there, or fetched at an earlier
    point whose block index is the same and left in place by the body since. -/
theorem found0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem found5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem found6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem found7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame from a run to the launch's post -/

/-- From a run that ends with every windowed array at what the launch computes and every other buffer as launched: the
    argument arrays end as given (a windowed input is never written back; the others are no window's). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The rectangles the body reads and writes -/

/-- The whole block of node rows (and of children rows). -/
abbrev rZ : Rect S64x32x512 := Rect.unit (s := S64x32x512) ![0, 0, 0] S64x32x512.size inb_S64x32x512_S64x32x512_0_0_0
/-- The left half of the children's rows: their hidden states. -/
abbrev rHk : Rect S64x32x512 := Rect.unit (s := S64x32x512) ![0, 0, 0] S64x32x256.size inb_S64x32x512_S64x32x256_0_0_0
/-- The right half of the children's rows: their memory cells. -/
abbrev rCk : Rect S64x32x512 := Rect.unit (s := S64x32x512) ![0, 0, 256] S64x32x256.size inb_S64x32x512_S64x32x256_0_0_256
abbrev rW3 : Rect S768x512 := Rect.unit (s := S768x512) ![0, 0] S768x512.size inb_S768x512_S768x512_0_0
abbrev rU3 : Rect S768x256 := Rect.unit (s := S768x256) ![0, 0] S768x256.size inb_S768x256_S768x256_0_0
abbrev rB3 : Rect S768 := Rect.unit (s := S768) ![0] S768.size inb_S768_S768_0
abbrev rWf : Rect S256x512 := Rect.unit (s := S256x512) ![0, 0] S256x512.size inb_S256x512_S256x512_0_0
abbrev rUf : Rect S256x256 := Rect.unit (s := S256x256) ![0, 0] S256x256.size inb_S256x256_S256x256_0_0
abbrev rBf : Rect S256 := Rect.unit (s := S256) ![0] S256.size inb_S256_S256_0
/-- The left half of the first result's block: the hidden state. -/
abbrev rOutH : Rect S64x512 := Rect.unit (s := S64x512) ![0, 0] S64x256.size inb_S64x512_S64x256_0_0
/-- The right half of the first result's block: the memory cell. -/
abbrev rOutC : Rect S64x512 := Rect.unit (s := S64x512) ![0, 256] S64x256.size inb_S64x512_S64x256_0_256
/-- The whole of the second result's block. -/
abbrev rSum : Rect S64x256 := Rect.unit (s := S64x256) ![0, 0] S64x256.size inb_S64x256_S64x256_0_0

/-! ## What the body stores, from the blocks it reads -/

/-- The memory cell the body stores, from the eight input blocks. -/
def cellOf (x0 : Vec F S64x32x512 .f32) (x1 : Vec F S64x32x512 .f32) (x2 : Vec F S768x512 .f32) (x3 : Vec F S768x256 .f32) (x4 : Vec F S768 .f32) (x5 : Vec F S256x512 .f32) (x6 : Vec F S256x256 .f32) (x7 : Vec F S256 .f32) : FVec F S64x256 .f32 :=
  k0_pay1 (View.ld x1 rCk)
    (k0_pay5 (View.ld x0 rZ) (View.ld x1 rHk) (View.ld x2 rW3) (View.ld x3 rU3) (View.ld x4 rB3))
    (k0_pay7 (View.ld x0 rZ) (View.ld x1 rHk) (View.ld x2 rW3) (View.ld x3 rU3) (View.ld x4 rB3))
    (k0_pay8 (View.ld x0 rZ)) (k0_pay9 (View.ld x1 rHk)) (k0_pay10 (View.ld x5 rWf)) (k0_pay11 (View.ld x6 rUf)) (View.ld x7 rBf)

/-- The hidden state the body stores, from the eight input blocks. -/
def hiddenOf (x0 : Vec F S64x32x512 .f32) (x1 : Vec F S64x32x512 .f32) (x2 : Vec F S768x512 .f32) (x3 : Vec F S768x256 .f32) (x4 : Vec F S768 .f32) (x5 : Vec F S256x512 .f32) (x6 : Vec F S256x256 .f32) (x7 : Vec F S256 .f32) : FVec F S64x256 .f32 :=
  k0_pay2 (View.ld x1 rCk)
    (k0_pay5 (View.ld x0 rZ) (View.ld x1 rHk) (View.ld x2 rW3) (View.ld x3 rU3) (View.ld x4 rB3))
    (k0_pay6 (View.ld x0 rZ) (View.ld x1 rHk) (View.ld x2 rW3) (View.ld x3 rU3) (View.ld x4 rB3))
    (k0_pay7 (View.ld x0 rZ) (View.ld x1 rHk) (View.ld x2 rW3) (View.ld x3 rU3) (View.ld x4 rB3))
    (k0_pay8 (View.ld x0 rZ)) (k0_pay9 (View.ld x1 rHk)) (k0_pay10 (View.ld x5 rWf)) (k0_pay11 (View.ld x6 rUf)) (View.ld x7 rBf)

/-- The first result's staging buffer after the body: the memory cell over the right half, over the hidden state over the
    left half (the later store first). -/
def outBlock (x0 : Vec F S64x32x512 .f32) (x1 : Vec F S64x32x512 .f32) (x2 : Vec F S768x512 .f32) (x3 : Vec F S768x256 .f32) (x4 : Vec F S768 .f32) (x5 : Vec F S256x512 .f32) (x6 : Vec F S256x256 .f32) (x7 : Vec F S256 .f32) : Vec F S64x512 .f32 :=
  View.canon [⟨rOutC, cellOf x0 x1 x2 x3 x4 x5 x6 x7⟩, ⟨rOutH, hiddenOf x0 x1 x2 x3 x4 x5 x6 x7⟩]

/-- The second result's staging buffer after the body: the children's hidden states summed. -/
def sumBlock (x1 : Vec F S64x32x512 .f32) : Vec F S64x256 .f32 :=
  View.canon [⟨rSum, k0_pay3 (View.ld x1 rHk)⟩]

/-- The two halves tile the first result's block. -/
theorem halves_cover (p0 p1 : Vec F S64x256 .f32) (y : S64x512.Idx) :
    ∃ pc ∈ ([⟨rOutC, p0⟩, ⟨rOutH, p1⟩] : List (View.Piece (Elt F) S64x512 .f32)), y ∈ pc.1.set :=
  View.cover_of_tiled [⟨rOutC, p0⟩, ⟨rOutH, p1⟩] S64x256.size (by rfl) y

/-- The one store covers the second result's block. -/
theorem sum_cover (p0 : Vec F S64x256 .f32) (y : S64x256.Idx) :
    ∃ pc ∈ ([⟨rSum, p0⟩] : List (View.Piece (Elt F) S64x256 .f32)), y ∈ pc.1.set :=
  View.cover_of_tiled [⟨rSum, p0⟩] S64x256.size (by rfl) y

/-! ## The body's triple -/

set_option maxHeartbeats 4000000 in
/-- The body on whole staging buffers — the eight inputs' at contents `x0 … x7`, the two results' at anything — runs to
    its end leaving the inputs' as they were and the results' at `outBlock` and `sumBlock` of the inputs'. -/
theorem sound_kernel (c : Dev nD) (E : Set ℕ) (i : grid0.Coords) (a0 : Memref sig .tc .vmem S64x32x512 .f32) (h0 : a0.IsWhole) (a1 : Memref sig .tc .vmem S64x32x512 .f32) (h1 : a1.IsWhole) (a2 : Memref sig .tc .vmem S768x512 .f32) (h2 : a2.IsWhole) (a3 : Memref sig .tc .vmem S768x256 .f32) (h3 : a3.IsWhole) (a4 : Memref sig .tc .vmem S768 .f32) (h4 : a4.IsWhole) (a5 : Memref sig .tc .vmem S256x512 .f32) (h5 : a5.IsWhole) (a6 : Memref sig .tc .vmem S256x256 .f32) (h6 : a6.IsWhole) (a7 : Memref sig .tc .vmem S256 .f32) (h7 : a7.IsWhole) (a8 : Memref sig .tc .vmem S64x512 .f32) (h8 : a8.IsWhole) (a9 : Memref sig .tc .vmem S64x256 .f32) (h9 : a9.IsWhole)
    (x0 : Vec F S64x32x512 .f32) (x1 : Vec F S64x32x512 .f32) (x2 : Vec F S768x512 .f32) (x3 : Vec F S768x256 .f32) (x4 : Vec F S768 .f32) (x5 : Vec F S256x512 .f32) (x6 : Vec F S256x256 .f32) (x7 : Vec F S256 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
        ∗ (∃ d, owns (c : Thread nD τ) a8 fullShare d) ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) a8 fullShare (outBlock x0 x1 x2 x3 x4 x5 x6 x7) ∗ owns (c : Thread nD τ) a9 fullShare (sumBlock x1)) -∗ K ⟨⟩))
      ⊢ wp frame (wpE (defs₀ (F := F)) Variants.none c none) E (cc0__tree_lstm_kernel i a0 h0 a1 h1 a2 h2 a3 h3 a4 h4 a5 h5 a6 h6 a7 h7 a8 h8 a9 h9) K := by
  simp only [cc0__tree_lstm_kernel_eq_skeleton]; unfold cc0__tree_lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (halves_cover _ _)
  iexists _; isplitr
  swap; · iexact H9
  ipureintro
  exact View.read_writes_eq_canon _ _ _ (sum_cover _)

/-! ## The launch's proof data -/

/-- On core `c`: the arrays as launched; after the body at point `t` each input's buffer at its block, the first
    result's at `outBlock` and the second's at `sumBlock` of the input blocks; nothing else kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
    | ⟨9, _⟩ => sumBlock (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outBlock (iblk m c 0 t) (iblk m c 1 t) (iblk m c 2 t) (iblk m c 3 t) (iblk m c 4 t) (iblk m c 5 t) (iblk m c 6 t) (iblk m c 7 t) := by dsimp only [dats]
theorem after9 (c : Dev nD) (t : Fin cfg0.N) : (dats m 0 c).after 9 t = sumBlock (iblk m c 1 t) := by dsimp only [dats]

theorem found0 (c : Dev nD) (t : Fin cfg0.N) (d) : (dats m 0 c).before 0 t d = iblk m c 0 t :=
  found0_of m (dats m 0 c) (A_eq m c 0) (after0 m c) t d
theorem found1 (c : Dev nD) (t : Fin cfg0.N) (d) : (dats m 0 c).before 1 t d = iblk m c 1 t :=
  found1_of m (dats m 0 c) (A_eq m c 1) (after1 m c) t d
theorem found2 (c : Dev nD) (t : Fin cfg0.N) (d) : (dats m 0 c).before 2 t d = iblk m c 2 t :=
  found2_of m (dats m 0 c) (A_eq m c 2) (after2 m c) t d
theorem found3 (c : Dev nD) (t : Fin cfg0.N) (d) : (dats m 0 c).before 3 t d = iblk m c 3 t :=
  found3_of m (dats m 0 c) (A_eq m c 3) (after3 m c) t d
theorem found4 (c : Dev nD) (t : Fin cfg0.N) (d) : (dats m 0 c).before 4 t d = iblk m c 4 t :=
  found4_of m (dats m 0 c) (A_eq m c 4) (after4 m c) t d
theorem found5 (c : Dev nD) (t : Fin cfg0.N) (d) : (dats m 0 c).before 5 t d = iblk m c 5 t :=
  found5_of m (dats m 0 c) (A_eq m c 5) (after5 m c) t d
theorem found6 (c : Dev nD) (t : Fin cfg0.N) (d) : (dats m 0 c).before 6 t d = iblk m c 6 t :=
  found6_of m (dats m 0 c) (A_eq m c 6) (after6 m c) t d
theorem found7 (c : Dev nD) (t : Fin cfg0.N) (d) : (dats m 0 c).before 7 t d = iblk m c 7 t :=
  found7_of m (dats m 0 c) (A_eq m c 7) (after7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- At any point the inputs' buffers hold their blocks, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6, found7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program on the TensorCore terminates, and ends with every windowed array at what
    the launch computes from the proof data and every other buffer as launched. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end and the fourteen argument arrays end as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Cell

end
-- ==== Proof.Spec.lean ====
/-
  The tree-structured LSTM cell, as one function of the fourteen argument arrays over the extended reals.

  For a node `b` with 32 children, `z` the node's rows (`zn`) and `zc` the children's rows, whose left half (columns
  0–255) is a child's hidden state and whose right half (columns 256–511) its memory cell:

    childSum b j        = Σ_n zc[b, n, j]                                            (the children's hidden states, summed)
    nodeLin W U β b j   = Σ_k zn[b, 0, k]·W[j, k] + Σ_k childSum b k · U[j, k] + β[j]  (a node-level gate before its nonlinearity)
    forgetLin b n j     = Σ_k zn[b, n, k]·Wf[j, k] + Σ_k zc[b, n, k]·Uf[j, k] + βf[j]   (the per-child forget gate before the logistic)
    cell b j            = σ(nodeLin_i) · tanh(nodeLin_u) + Σ_n σ(forgetLin b n j) · zc[b, n, 256 + j]
    hidden b j          = σ(nodeLin_o) · tanh(cell b j)

  The first result holds `hidden` in its left 256 columns and `cell` in its right 256; the second result is `childSum`.
  Every sum is a finite sum in the extended reals, every product the extended reals' product, σ the logistic function
  `1 / (1 + e^(-x))` and `tanh` the hyperbolic tangent as the extended reals read them.
-/
import Idealize.ShloMosaic.PureOps.Ideal
import Idealize.ShloMosaic.Lib.ValueIdx

noncomputable section

open scoped BigOperators

namespace TreeCell

open Idealize.ShloMosaic Idealize.ShloMosaic.ValueIdx

/-- The rows of the nodes (and of their children): 4096 nodes, 32 rows each, 512 columns. -/
abbrev Sz : Shape := ⟨3, ![4096, 32, 512]⟩
/-- An input weight: 256 gate units by 512 columns. -/
abbrev Sw : Shape := ⟨2, ![256, 512]⟩
/-- A recurrent weight: 256 gate units by 256 hidden units. -/
abbrev Su : Shape := ⟨2, ![256, 256]⟩
/-- A bias: 256 gate units. -/
abbrev Sb : Shape := ⟨1, ![256]⟩
/-- The first result: 4096 nodes by 512 columns. -/
abbrev So : Shape := ⟨2, ![4096, 512]⟩
/-- The second result: 4096 nodes by 256 columns. -/
abbrev Sh : Shape := ⟨2, ![4096, 256]⟩

/-- Column `j` of the left half. -/
def lo (j : Fin 256) : Fin 512 := ⟨j.val, by omega⟩
/-- Column `j` of the right half. -/
def hi (j : Fin 256) : Fin 512 := ⟨j.val + 256, by omega⟩

/-- The children's hidden states summed over the 32 children. -/
def childSum (zc : FVec Ideal Sz .f32) (b : Fin 4096) (j : Fin 256) : EReal :=
  ∑ n : Fin 32, zc (ix3 b n (lo j))

/-- A node-level gate before its nonlinearity: the node's first row against `W`, the summed children against `U`, plus the bias. -/
def nodeLin (W : FVec Ideal Sw .f32) (Uu : FVec Ideal Su .f32) (β : FVec Ideal Sb .f32) (zn zc : FVec Ideal Sz .f32)
    (b : Fin 4096) (j : Fin 256) : EReal :=
  (∑ k : Fin 512, zn (ix3 b (0 : Fin 32) k) * W (ix2 j k)) + (∑ k : Fin 256, childSum zc b k * Uu (ix2 j k)) + β (ix1 j)

/-- The forget gate of child `n` before the logistic: row `n` of the node against `Wf`, the child's hidden state against `Uf`, plus the bias. -/
def forgetLin (Wf : FVec Ideal Sw .f32) (Uf : FVec Ideal Su .f32) (βf : FVec Ideal Sb .f32) (zn zc : FVec Ideal Sz .f32)
    (b : Fin 4096) (n : Fin 32) (j : Fin 256) : EReal :=
  (∑ k : Fin 512, zn (ix3 b n k) * Wf (ix2 j k)) + (∑ k : Fin 256, zc (ix3 b n (lo k)) * Uf (ix2 j k)) + βf (ix1 j)

/-- The new memory cell: input gate times candidate, plus the children's cells each weighted by its forget gate. -/
def cell (zn zc : FVec Ideal Sz .f32)
    (Wi : FVec Ideal Sw .f32) (Ui : FVec Ideal Su .f32) (βi : FVec Ideal Sb .f32)
    (Wf : FVec Ideal Sw .f32) (Uf : FVec Ideal Su .f32) (βf : FVec Ideal Sb .f32)
    (Wu : FVec Ideal Sw .f32) (Uu : FVec Ideal Su .f32) (βu : FVec Ideal Sb .f32)
    (b : Fin 4096) (j : Fin 256) : EReal :=
  Ideal.logistic (nodeLin Wi Ui βi zn zc b j) * Ideal.tanh (nodeLin Wu Uu βu zn zc b j)
    + ∑ n : Fin 32, Ideal.logistic (forgetLin Wf Uf βf zn zc b n j) * zc (ix3 b n (hi j))

/-- The new hidden state: output gate times the hyperbolic tangent of the new cell. -/
def hidden (zn zc : FVec Ideal Sz .f32)
    (Wi : FVec Ideal Sw .f32) (Ui : FVec Ideal Su .f32) (βi : FVec Ideal Sb .f32)
    (Wf : FVec Ideal Sw .f32) (Uf : FVec Ideal Su .f32) (βf : FVec Ideal Sb .f32)
    (Wo : FVec Ideal Sw .f32) (Uo : FVec Ideal Su .f32) (βo : FVec Ideal Sb .f32)
    (Wu : FVec Ideal Sw .f32) (Uu : FVec Ideal Su .f32) (βu : FVec Ideal Sb .f32)
    (b : Fin 4096) (j : Fin 256) : EReal :=
  Ideal.logistic (nodeLin Wo Uo βo zn zc b j) * Ideal.tanh (cell zn zc Wi Ui βi Wf Uf βf Wu Uu βu b j)

/-- The first result: the hidden state in columns 0–255, the memory cell in columns 256–511. The arguments are in the
    order of the programs' arguments. -/
def out (zn zc : FVec Ideal Sz .f32)
    (Wi : FVec Ideal Sw .f32) (Ui : FVec Ideal Su .f32) (βi : FVec Ideal Sb .f32)
    (Wf : FVec Ideal Sw .f32) (Uf : FVec Ideal Su .f32) (βf : FVec Ideal Sb .f32)
    (Wo : FVec Ideal Sw .f32) (Uo : FVec Ideal Su .f32) (βo : FVec Ideal Sb .f32)
    (Wu : FVec Ideal Sw .f32) (Uu : FVec Ideal Su .f32) (βu : FVec Ideal Sb .f32) : FVec Ideal So .f32 := fun i =>
  if h : (i 1).val < 256 then hidden zn zc Wi Ui βi Wf Uf βf Wo Uo βo Wu Uu βu (i 0) ⟨(i 1).val, h⟩
  else cell zn zc Wi Ui βi Wf Uf βf Wu Uu βu (i 0) ⟨(i 1).val - 256, by have h1 : (i 1).val < 512 := (i 1).isLt; omega⟩

/-- The second result: the children's hidden states, summed. -/
def htilde (zc : FVec Ideal Sz .f32) : FVec Ideal Sh .f32 := fun i => childSum zc (i 0) (i 1)

end TreeCell

end
-- ==== Proof.LibJoinThree.lean ====
/-
  Three arrays of one shape joined along an axis, read at an index.

  If `t` is the join of three arrays `x₀, x₁, x₂` of shape `s` along axis `a`, then at an index `j` whose coordinate on
  that axis is `k` extents of `s` plus `r` (with `r` inside one extent) the join holds `x_k` at the index that has `r` on
  the axis and `j`'s coordinates elsewhere. For any shapes, any axis and any element type.
-/
import Idealize.ShloMosaic.Lib.Pipeline.Value

namespace JoinThree

open Idealize.ShloMosaic

variable {α : Type}

/-- The join of three arrays of shape `s` along axis `a`, at an index in the first array's span: the first array there. -/
theorem first {t s : Shape} (a : Fin t.rank) (x₀ x₁ x₂ : s.Idx → α)
    (h : Shape.Concatenates [s, s, s] t a) (hr : s.rank = t.rank) (j : t.Idx) (i : s.Idx)
    (hi : ∀ b : Fin s.rank, b.cast hr ≠ a → (i b).val = (j (b.cast hr)).val)
    (ha : 0 + (i (a.cast hr.symm)).val = (j a).val) :
    concatenate t a [⟨s, x₀⟩, ⟨s, x₁⟩, ⟨s, x₂⟩] h j = x₀ i :=
  concatenate_apply_piece a [⟨s, x₀⟩, ⟨s, x₁⟩, ⟨s, x₂⟩] h j 0 (by simp) s x₀ rfl hr 0 (by simp) i hi ha

/-- At an index in the second array's span (one extent in): the second array there. -/
theorem second {t s : Shape} (a : Fin t.rank) (x₀ x₁ x₂ : s.Idx → α)
    (h : Shape.Concatenates [s, s, s] t a) (hr : s.rank = t.rank) (j : t.Idx) (i : s.Idx)
    (hi : ∀ b : Fin s.rank, b.cast hr ≠ a → (i b).val = (j (b.cast hr)).val)
    (ha : s.size (a.cast hr.symm) + (i (a.cast hr.symm)).val = (j a).val) :
    concatenate t a [⟨s, x₀⟩, ⟨s, x₁⟩, ⟨s, x₂⟩] h j = x₁ i :=
  concatenate_apply_piece a [⟨s, x₀⟩, ⟨s, x₁⟩, ⟨s, x₂⟩] h j 1 (by simp) s x₁ rfl hr (s.size (a.cast hr.symm)) (by simp [hr]) i hi ha

/-- At an index in the third array's span (two extents in): the third array there. -/
theorem third {t s : Shape} (a : Fin t.rank) (x₀ x₁ x₂ : s.Idx → α)
    (h : Shape.Concatenates [s, s, s] t a) (hr : s.rank = t.rank) (j : t.Idx) (i : s.Idx)
    (hi : ∀ b : Fin s.rank, b.cast hr ≠ a → (i b).val = (j (b.cast hr)).val)
    (ha : (s.size (a.cast hr.symm) + s.size (a.cast hr.symm)) + (i (a.cast hr.symm)).val = (j a).val) :
    concatenate t a [⟨s, x₀⟩, ⟨s, x₁⟩, ⟨s, x₂⟩] h j = x₂ i :=
  concatenate_apply_piece a [⟨s, x₀⟩, ⟨s, x₁⟩, ⟨s, x₂⟩] h j 2 (by simp) s x₂ rfl hr (s.size (a.cast hr.symm) + s.size (a.cast hr.symm)) (by simp [hr]) i hi ha

end JoinThree
-- ==== Proof.CellBlocks.lean ====
/-
  The blocks of the launch, read at coordinates.

  At grid point `t` the body is handed block `t` of the node rows and of the children rows — 64 consecutive nodes, node `p`
  of the block being node `t·64 + p` of the batch — and the whole of each weight array. The three node-level gates' input
  weights (and recurrent weights, and biases) reach the body joined row-wise into one 768-row array: rows 0–255 are the input
  gate's, rows 256–511 the output gate's, rows 512–767 the candidate's. This module decides the block index maps over the
  64-point grid once, reads each block at a coordinate as an entry of an argument array, and reads each joined array at a
  gate's row as an entry of that gate's own array.
-/
import proofs.«173685_j4526895530471_2_alg».proof.Proof.CellFrame
import proofs.«173685_j4526895530471_2_alg».proof.Proof.Spec
import proofs.«173685_j4526895530471_2_alg».proof.Proof.LibJoinThree
import Idealize.ShloMosaic.Lib.Pipeline.Value
import Idealize.ShloMosaic.Lib.ValueIdx
import Idealize.ShloMosaic.Lib.StableHlo.Run
import Idealize.ShloMosaic.Lib.Decide

set_option maxRecDepth 16384

noncomputable section

open scoped BigOperators

namespace Cert.KernelIdeal.CellBlocks

open Cert.KernelIdeal Cert.KernelIdeal.Gen Cert.KernelIdeal.Cell
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The grid has 64 points. -/
theorem point_lt (t : Fin cfg0.N) : t.val < 64 := lt_of_lt_of_eq t.isLt N_0

/-- Node `p` of block `t`, as a node of the whole batch. -/
def node (t : Fin cfg0.N) (p : Fin 64) : Fin 4096 := ⟨t.val * 64 + p.val, by have := point_lt t; have := p.isLt; omega⟩

/-- The block index maps, decided over the grid: the node rows, the children rows and the two results move with the
    point along the node axis; the weights stay. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 1) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 1) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-! ## The blocks, read at coordinates -/

/-- Row `n` of node `p` in the node-rows block of point `t` is row `n` of node `t·64 + p`. -/
theorem nodeBlock_apply (c : Dev nD) (t : Fin cfg0.N) (p : Fin 64) (n : Fin 32) (k : Fin 512) :
    (iblk m c 0 t : Vec Ideal S64x32x512 .f32) (ix3 p n k) = m ((c : Thread nD τ).loc main_arg0) (ix3 (node t p) n k) := by
  show V m c main_arg0 (((cfg0.win 0).blk t).view.emb (ix3 p n k)) = _
  rw [V_main_arg0]
  refine congrArg _ (funext fun a => Fin.ext ?_)
  obtain ⟨⟨e0, e1, e2⟩, -⟩ := idx_facts t
  match a with
  | ⟨0, _⟩ => show win0_0.index t (0 : Fin 3) * 64 + 1 * p.val = t.val * 64 + p.val; omega
  | ⟨1, _⟩ => show win0_0.index t (1 : Fin 3) * 32 + 1 * n.val = n.val; omega
  | ⟨2, _⟩ => show win0_0.index t (2 : Fin 3) * 512 + 1 * k.val = k.val; omega

/-- The same for the children's rows. -/
theorem childBlock_apply (c : Dev nD) (t : Fin cfg0.N) (p : Fin 64) (n : Fin 32) (k : Fin 512) :
    (iblk m c 1 t : Vec Ideal S64x32x512 .f32) (ix3 p n k) = m ((c : Thread nD τ).loc main_arg1) (ix3 (node t p) n k) := by
  show V m c main_arg1 (((cfg0.win 1).blk t).view.emb (ix3 p n k)) = _
  rw [V_main_arg1]
  refine congrArg _ (funext fun a => Fin.ext ?_)
  obtain ⟨-, ⟨e0, e1, e2⟩, -⟩ := idx_facts t
  match a with
  | ⟨0, _⟩ => show win0_1.index t (0 : Fin 3) * 64 + 1 * p.val = t.val * 64 + p.val; omega
  | ⟨1, _⟩ => show win0_1.index t (1 : Fin 3) * 32 + 1 * n.val = n.val; omega
  | ⟨2, _⟩ => show win0_1.index t (2 : Fin 3) * 512 + 1 * k.val = k.val; omega

/-- The three input weights joined row-wise, as launched. -/
theorem joinedW (c : Dev nD) : (V m c main_v0 : S768x512.Idx → EReal)
    = concatenate S768x512 0 [⟨S256x512, m ((c : Thread nD τ).loc main_arg2)⟩, ⟨S256x512, m ((c : Thread nD τ).loc main_arg8)⟩, ⟨S256x512, m ((c : Thread nD τ).loc main_arg11)⟩] concatenates_S256x512_S256x512_S256x512_S768x512_d0 := by
  dsimp only [V, hostOps0]; after_results; rfl

/-- The three recurrent weights joined row-wise, as launched. -/
theorem joinedU (c : Dev nD) : (V m c main_v1 : S768x256.Idx → EReal)
    = concatenate S768x256 0 [⟨S256x256, m ((c : Thread nD τ).loc main_arg3)⟩, ⟨S256x256, m ((c : Thread nD τ).loc main_arg9)⟩, ⟨S256x256, m ((c : Thread nD τ).loc main_arg12)⟩] concatenates_S256x256_S256x256_S256x256_S768x256_d0 := by
  dsimp only [V, hostOps0]; after_results; rfl

/-- The three biases joined, as launched. -/
theorem joinedB (c : Dev nD) : (V m c main_v2 : S768.Idx → EReal)
    = concatenate S768 0 [⟨S256, m ((c : Thread nD τ).loc main_arg4)⟩, ⟨S256, m ((c : Thread nD τ).loc main_arg10)⟩, ⟨S256, m ((c : Thread nD τ).loc main_arg13)⟩] concatenates_S256_S256_S256_S768_d0 := by
  dsimp only [V, hostOps0]; after_results; rfl

/-- The joined input weights' block is the whole joined array. -/
theorem w3Block_apply (c : Dev nD) (t : Fin cfg0.N) (g : Fin 768) (k : Fin 512) :
    (iblk m c 2 t : Vec Ideal S768x512 .f32) (ix2 g k) = V m c main_v0 (ix2 g k) := by
  show V m c main_v0 (((cfg0.win 2).blk t).view.emb (ix2 g k)) = _
  refine congrArg _ (funext fun a => Fin.ext ?_)
  obtain ⟨-, -, ⟨e0, e1⟩, -⟩ := idx_facts t
  match a with
  | ⟨0, _⟩ => show win0_2.index t (0 : Fin 2) * 768 + 1 * g.val = g.val; omega
  | ⟨1, _⟩ => show win0_2.index t (1 : Fin 2) * 512 + 1 * k.val = k.val; omega

/-- The joined recurrent weights' block is the whole joined array. -/
theorem u3Block_apply (c : Dev nD) (t : Fin cfg0.N) (g : Fin 768) (k : Fin 256) :
    (iblk m c 3 t : Vec Ideal S768x256 .f32) (ix2 g k) = V m c main_v1 (ix2 g k) := by
  show V m c main_v1 (((cfg0.win 3).blk t).view.emb (ix2 g k)) = _
  refine congrArg _ (funext fun a => Fin.ext ?_)
  obtain ⟨-, -, -, ⟨e0, e1⟩, -⟩ := idx_facts t
  match a with
  | ⟨0, _⟩ => show win0_3.index t (0 : Fin 2) * 768 + 1 * g.val = g.val; omega
  | ⟨1, _⟩ => show win0_3.index t (1 : Fin 2) * 256 + 1 * k.val = k.val; omega

/-- The joined biases' block is the whole joined array. -/
theorem b3Block_apply (c : Dev nD) (t : Fin cfg0.N) (g : Fin 768) :
    (iblk m c 4 t : Vec Ideal S768 .f32) (ix1 g) = V m c main_v2 (ix1 g) := by
  show V m c main_v2 (((cfg0.win 4).blk t).view.emb (ix1 g)) = _
  refine congrArg _ (funext fun a => Fin.ext ?_)
  obtain ⟨-, -, -, -, e0, -⟩ := idx_facts t
  match a with
  | ⟨0, _⟩ => show win0_4.index t (0 : Fin 1) * 768 + 1 * g.val = g.val; omega

/-- The forget gate's input weight's block is the whole array. -/
theorem wfBlock_apply (c : Dev nD) (t : Fin cfg0.N) (j : Fin 256) (k : Fin 512) :
    (iblk m c 5 t : Vec Ideal S256x512 .f32) (ix2 j k) = m ((c : Thread nD τ).loc main_arg5) (ix2 j k) := by
  show V m c main_arg5 (((cfg0.win 5).blk t).view.emb (ix2 j k)) = _
  rw [V_main_arg5]
  refine congrArg _ (funext fun a => Fin.ext ?_)
  obtain ⟨-, -, -, -, -, ⟨e0, e1⟩, -⟩ := idx_facts t
  match a with
  | ⟨0, _⟩ => show win0_5.index t (0 : Fin 2) * 256 + 1 * j.val = j.val; omega
  | ⟨1, _⟩ => show win0_5.index t (1 : Fin 2) * 512 + 1 * k.val = k.val; omega

/-- The forget gate's recurrent weight's block is the whole array. -/
theorem ufBlock_apply (c : Dev nD) (t : Fin cfg0.N) (j : Fin 256) (k : Fin 256) :
    (iblk m c 6 t : Vec Ideal S256x256 .f32) (ix2 j k) = m ((c : Thread nD τ).loc main_arg6) (ix2 j k) := by
  show V m c main_arg6 (((cfg0.win 6).blk t).view.emb (ix2 j k)) = _
  rw [V_main_arg6]
  refine congrArg _ (funext fun a => Fin.ext ?_)
  obtain ⟨-, -, -, -, -, -, ⟨e0, e1⟩, -⟩ := idx_facts t
  match a with
  | ⟨0, _⟩ => show win0_6.index t (0 : Fin 2) * 256 + 1 * j.val = j.val; omega
  | ⟨1, _⟩ => show win0_6.index t (1 : Fin 2) * 256 + 1 * k.val = k.val; omega

/-- The forget gate's bias's block is the whole array. -/
theorem bfBlock_apply (c : Dev nD) (t : Fin cfg0.N) (j : Fin 256) :
    (iblk m c 7 t : Vec Ideal S256 .f32) (ix1 j) = m ((c : Thread nD τ).loc main_arg7) (ix1 j) := by
  show V m c main_arg7 (((cfg0.win 7).blk t).view.emb (ix1 j)) = _
  rw [V_main_arg7]
  refine congrArg _ (funext fun a => Fin.ext ?_)
  obtain ⟨-, -, -, -, -, -, -, e0, -⟩ := idx_facts t
  match a with
  | ⟨0, _⟩ => show win0_7.index t (0 : Fin 1) * 256 + 1 * j.val = j.val; omega

/-! ## The joined arrays, read at a row of one of the three gates -/

/-- Gate `s` (0: input, 1: output, 2: candidate) owns rows `s·256 … s·256 + 255` of a joined array. -/
def gateRow (s : Fin 3) (j : Fin 256) : Fin 768 := ⟨s.val * 256 + j.val, by have := s.isLt; have := j.isLt; omega⟩

theorem joinedW_in (c : Dev nD) (j : Fin 256) (k : Fin 512) :
    V m c main_v0 (ix2 (gateRow 0 j) k) = m ((c : Thread nD τ).loc main_arg2) (ix2 j k) := by
  rw [joinedW]
  exact JoinThree.first (t := S768x512) (s := S256x512) (0 : Fin 2) _ _ _ _ rfl (ix2 (gateRow 0 j) k) (ix2 j k)
    (fun b hb => by match b with | ⟨0, _⟩ => exact absurd rfl hb | ⟨1, _⟩ => rfl) (by show 0 + j.val = 0 * 256 + j.val; omega)
theorem joinedW_out (c : Dev nD) (j : Fin 256) (k : Fin 512) :
    V m c main_v0 (ix2 (gateRow 1 j) k) = m ((c : Thread nD τ).loc main_arg8) (ix2 j k) := by
  rw [joinedW]
  exact JoinThree.second (t := S768x512) (s := S256x512) (0 : Fin 2) _ _ _ _ rfl (ix2 (gateRow 1 j) k) (ix2 j k)
    (fun b hb => by match b with | ⟨0, _⟩ => exact absurd rfl hb | ⟨1, _⟩ => rfl) (by show 256 + j.val = 1 * 256 + j.val; omega)
theorem joinedW_cand (c : Dev nD) (j : Fin 256) (k : Fin 512) :
    V m c main_v0 (ix2 (gateRow 2 j) k) = m ((c : Thread nD τ).loc main_arg11) (ix2 j k) := by
  rw [joinedW]
  exact JoinThree.third (t := S768x512) (s := S256x512) (0 : Fin 2) _ _ _ _ rfl (ix2 (gateRow 2 j) k) (ix2 j k)
    (fun b hb => by match b with | ⟨0, _⟩ => exact absurd rfl hb | ⟨1, _⟩ => rfl) (by show (256 + 256) + j.val = 2 * 256 + j.val; omega)

theorem joinedU_in (c : Dev nD) (j : Fin 256) (k : Fin 256) :
    V m c main_v1 (ix2 (gateRow 0 j) k) = m ((c : Thread nD τ).loc main_arg3) (ix2 j k) := by
  rw [joinedU]
  exact JoinThree.first (t := S768x256) (s := S256x256) (0 : Fin 2) _ _ _ _ rfl (ix2 (gateRow 0 j) k) (ix2 j k)
    (fun b hb => by match b with | ⟨0, _⟩ => exact absurd rfl hb | ⟨1, _⟩ => rfl) (by show 0 + j.val = 0 * 256 + j.val; omega)
theorem joinedU_out (c : Dev nD) (j : Fin 256) (k : Fin 256) :
    V m c main_v1 (ix2 (gateRow 1 j) k) = m ((c : Thread nD τ).loc main_arg9) (ix2 j k) := by
  rw [joinedU]
  exact JoinThree.second (t := S768x256) (s := S256x256) (0 : Fin 2) _ _ _ _ rfl (ix2 (gateRow 1 j) k) (ix2 j k)
    (fun b hb => by match b with | ⟨0, _⟩ => exact absurd rfl hb | ⟨1, _⟩ => rfl) (by show 256 + j.val = 1 * 256 + j.val; omega)
theorem joinedU_cand (c : Dev nD) (j : Fin 256) (k : Fin 256) :
    V m c main_v1 (ix2 (gateRow 2 j) k) = m ((c : Thread nD τ).loc main_arg12) (ix2 j k) := by
  rw [joinedU]
  exact JoinThree.third (t := S768x256) (s := S256x256) (0 : Fin 2) _ _ _ _ rfl (ix2 (gateRow 2 j) k) (ix2 j k)
    (fun b hb => by match b with | ⟨0, _⟩ => exact absurd rfl hb | ⟨1, _⟩ => rfl) (by show (256 + 256) + j.val = 2 * 256 + j.val; omega)

theorem joinedB_in (c : Dev nD) (j : Fin 256) :
    V m c main_v2 (ix1 (gateRow 0 j)) = m ((c : Thread nD τ).loc main_arg4) (ix1 j) := by
  rw [joinedB]
  exact JoinThree.first (t := S768) (s := S256) (0 : Fin 1) _ _ _ _ rfl (ix1 (gateRow 0 j)) (ix1 j)
    (fun b hb => by match b with | ⟨0, _⟩ => exact absurd rfl hb) (by show 0 + j.val = 0 * 256 + j.val; omega)
theorem joinedB_out (c : Dev nD) (j : Fin 256) :
    V m c main_v2 (ix1 (gateRow 1 j)) = m ((c : Thread nD τ).loc main_arg10) (ix1 j) := by
  rw [joinedB]
  exact JoinThree.second (t := S768) (s := S256) (0 : Fin 1) _ _ _ _ rfl (ix1 (gateRow 1 j)) (ix1 j)
    (fun b hb => by match b with | ⟨0, _⟩ => exact absurd rfl hb) (by show 256 + j.val = 1 * 256 + j.val; omega)
theorem joinedB_cand (c : Dev nD) (j : Fin 256) :
    V m c main_v2 (ix1 (gateRow 2 j)) = m ((c : Thread nD τ).loc main_arg13) (ix1 j) := by
  rw [joinedB]
  exact JoinThree.third (t := S768) (s := S256) (0 : Fin 1) _ _ _ _ rfl (ix1 (gateRow 2 j)) (ix1 j)
    (fun b hb => by match b with | ⟨0, _⟩ => exact absurd rfl hb) (by show (256 + 256) + j.val = 2 * 256 + j.val; omega)

end Cert.KernelIdeal.CellBlocks

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.BodyValue.lean ====
/-
  The arithmetic of the tree-LSTM cell's body, read at an index, over the extended reals.

  For a block of 64 nodes with 32 children each: z the nodes' rows, hk the children's hidden states, ck the children's
  memory cells, W3 / U3 / B3 the three node-level gates' stacked weights and biases (768 = 3 · 256 gate units), Wf / Uf / Bf
  the forget gate's.  Every cast to or from the 16-bit format is the identity here, every matrix product into a zero
  accumulator the plain sum of products, every lane sum from 0.0 the plain sum.
    sum_apply      the children's hidden states summed over the 32 children
    lin_apply      a node-level gate unit before its nonlinearity: input-weight sum, recurrent sum, bias
    inGate_apply, outGate_apply, cand_apply   the three node-level gates: columns 0–255, 256–511, 512–767 of the 768
    cell_apply     the new memory cell: input gate times candidate plus the children's cells weighted by their forget gates
    hidden_apply   the new hidden state: output gate times the hyperbolic tangent of the new cell
-/
import proofs.«173685_j4526895530471_2_alg».proof.Proof.Gen.KernelIdeal.Skeleton
import proofs.«173685_j4526895530471_2_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx

/-! ## Small steps -/

/-- Two sums are equal when their summands are. -/
theorem add_congr {a b c d : EReal} (h1 : a = c) (h2 : b = d) : a + b = c + d := by rw [h1, h2]

/-- Two products are equal when their factors are. -/
theorem mul_congr {a b c d : EReal} (h1 : a = c) (h2 : b = d) : a * b = c * d := by rw [h1, h2]

/-- Row p · 32 + n of the 2048 flattened (node, child) rows. -/
def flatRow (p : Fin 64) (n : Fin 32) : Fin 2048 := ⟨p.val * 32 + n.val, by omega⟩

/-- The sum over the children axis of a [64, 32, 256] array, at (p, j): the sum over n of its (p, n, j) entries. -/
theorem childAxisSum_apply (x : FVec Ideal S64x32x256 .f32) (h : S64x32x256.Reduces [1] S64x256)
    (hφ : FKind.Formats .f32) (hacc : (0x00000000#32 : BitVec 32) = FKind.add.neutral .f32 hφ) (p : Fin 64) (j : Fin 256) :
    multiReduction .add [1] S64x256 x 0x00000000#32 h hφ hacc (ix2 p j) = ∑ n : Fin 32, x (ix3 p n j) := by
  refine (Ideal.multiReduction_add_single x _ h hφ hacc (ix2 p j)).trans ?_
  exact Finset.sum_congr rfl fun n _ => congrArg x (funext fun a => Fin.ext (by
    match a with
    | ⟨0, _⟩ => rfl
    | ⟨1, _⟩ => rfl
    | ⟨2, _⟩ => rfl))

/-- The first of a node's 32 rows, cut out and viewed as a row of a [64, 512] matrix. -/
theorem firstRow_apply (z : Vec Ideal S64x32x512 .f32) (hs : S64x32x512.Slices ![0, 0, 0] S64x1x512)
    (hc : S64x1x512.ShapeCasts S64x512) (p : Fin 64) (k : Fin 512) :
    shapeCast S64x512 (extractStridedSlice S64x1x512 ![0, 0, 0] z hs) hc (ix2 p k) = z (ix3 p (0 : Fin 32) k) := by
  refine (shapeCast_apply _ hc (ix2 p k) (ix3 p (0 : Fin 1) k) ?_).trans ?_
  · rw [Shape.rowMajor_val_three, Shape.rowMajor_val_two]
    show (p.val * 1 + 0) * 512 + k.val = p.val * 512 + k.val
    omega
  · exact slice3_axis1_apply 0 z hs p (0 : Fin 1) k (0 : Fin 32) rfl

/-- A weight matrix [a, b], cast to its own shape and transposed, at (k, g): the weight's (g, k) entry. -/
theorem weightT_apply {a b : ℕ} (W : Vec Ideal ⟨2, ![a, b]⟩ .f32) (hc : (⟨2, ![a, b]⟩ : Shape).ShapeCasts ⟨2, ![a, b]⟩)
    (hb : FTy.bf16.bits < FTy.f32.bits) (ht : (⟨2, ![a, b]⟩ : Shape).Transposes [1, 0] ⟨2, ![b, a]⟩) (k : Fin b) (g : Fin a) :
    transpose ⟨2, ![b, a]⟩ [1, 0] (truncf .bf16 (shapeCast ⟨2, ![a, b]⟩ W hc) hb : FVec Ideal ⟨2, ![a, b]⟩ .bf16) ht (ix2 k g)
      = W (ix2 g k) := by
  refine (transpose_ix2_apply _ ht k g).trans ?_
  exact congrFun (shapeCast_self W hc) (ix2 g k)

/-- A weight matrix [a, b] transposed, at (k, g): the weight's (g, k) entry. -/
theorem plainT_apply {a b : ℕ} (W : Vec Ideal ⟨2, ![a, b]⟩ .f32)
    (hb : FTy.bf16.bits < FTy.f32.bits) (ht : (⟨2, ![a, b]⟩ : Shape).Transposes [1, 0] ⟨2, ![b, a]⟩) (k : Fin b) (g : Fin a) :
    transpose ⟨2, ![b, a]⟩ [1, 0] (truncf .bf16 W hb : FVec Ideal ⟨2, ![a, b]⟩ .bf16) ht (ix2 k g) = W (ix2 g k) :=
  transpose_ix2_apply _ ht k g

/-- A bias [b], cast to its own shape, viewed as one row and repeated over a rows, at (p, g): the bias's entry g. -/
theorem biasRows_apply {a b : ℕ} (B : Vec Ideal ⟨1, ![b]⟩ .f32) (h0 : (⟨1, ![b]⟩ : Shape).ShapeCasts ⟨1, ![b]⟩)
    (h1 : (⟨1, ![b]⟩ : Shape).ShapeCasts ⟨2, ![1, b]⟩) (h2 : (⟨2, ![1, b]⟩ : Shape).Broadcasts ⟨2, ![a, b]⟩) (p : Fin a) (g : Fin b) :
    broadcastTo ⟨2, ![a, b]⟩ (shapeCast ⟨2, ![1, b]⟩ (shapeCast ⟨1, ![b]⟩ B h0) h1) h2 (ix2 p g) = B (ix1 g) := by
  refine (broadcastTo_1b_ab_apply _ h2 p g).trans ((shapeCast_a_1a_apply _ h1 0 g).trans ?_)
  exact congrFun (shapeCast_self B h0) (ix1 g)

/-! ## The children's hidden states, summed -/

theorem sum_apply (hk : Vec Ideal S64x32x256 .f32) (p : Fin 64) (j : Fin 256) :
    k0_pay3 hk (ix2 p j) = ∑ n : Fin 32, hk (ix3 p n j) := by
  unfold k0_pay3
  exact childAxisSum_apply hk _ _ _ p j

/-! ## A node-level gate unit before its nonlinearity -/

theorem lin_apply (z : Vec Ideal S64x32x512 .f32) (hk : Vec Ideal S64x32x256 .f32) (W3 : Vec Ideal S768x512 .f32)
    (U3 : Vec Ideal S768x256 .f32) (B3 : Vec Ideal S768 .f32) (p : Fin 64) (g : Fin 768) :
    k0_pay4 z hk W3 U3 B3 (ix2 p g)
      = (∑ k : Fin 512, z (ix3 p (0 : Fin 32) k) * W3 (ix2 g k))
        + (∑ k : Fin 256, (∑ n : Fin 32, hk (ix3 p n k)) * U3 (ix2 g k)) + B3 (ix1 g) := by
  unfold k0_pay4
  refine (addf_apply _ _ (ix2 p g)).trans (add_congr ((addf_apply _ _ (ix2 p g)).trans (add_congr ?_ ?_)) ?_)
  · refine (Cert.LibMatmulPlain.matmul_zero_apply _ none _ _ p g).trans (Finset.sum_congr rfl fun k _ => mul_congr ?_ ?_)
    · exact firstRow_apply z slices_S64x32x512_o0_0_0_S64x1x512 shapeCasts_S64x1x512_S64x512 p k
    · exact weightT_apply W3 _ _ _ k g
  · refine (Cert.LibMatmulPlain.matmul_zero_apply _ none _ _ p g).trans (Finset.sum_congr rfl fun k _ => mul_congr ?_ ?_)
    · exact sum_apply hk p k
    · exact weightT_apply U3 _ _ _ k g
  · exact biasRows_apply B3 _ _ _ p g

/-! ## The three node-level gates -/

/-- The input gate: the logistic function of columns 0–255 of the 768. -/
theorem inGate_apply (z : Vec Ideal S64x32x512 .f32) (hk : Vec Ideal S64x32x256 .f32) (W3 : Vec Ideal S768x512 .f32)
    (U3 : Vec Ideal S768x256 .f32) (B3 : Vec Ideal S768 .f32) (p : Fin 64) (j : Fin 256) :
    k0_pay5 z hk W3 U3 B3 (ix2 p j) = Ideal.logistic (k0_pay4 z hk W3 U3 B3 (ix2 p (⟨j.val, by omega⟩ : Fin 768))) := by
  unfold k0_pay5
  exact congrArg Ideal.logistic
    (slice2_axis1_apply 0 (k0_pay4 z hk W3 U3 B3) slices_S64x768_o0_0_S64x256 p j ⟨j.val, by omega⟩ (Nat.zero_add _).symm)

/-- The output gate: the logistic function of columns 256–511 of the 768. -/
theorem outGate_apply (z : Vec Ideal S64x32x512 .f32) (hk : Vec Ideal S64x32x256 .f32) (W3 : Vec Ideal S768x512 .f32)
    (U3 : Vec Ideal S768x256 .f32) (B3 : Vec Ideal S768 .f32) (p : Fin 64) (j : Fin 256) :
    k0_pay6 z hk W3 U3 B3 (ix2 p j) = Ideal.logistic (k0_pay4 z hk W3 U3 B3 (ix2 p (⟨j.val + 256, by omega⟩ : Fin 768))) := by
  unfold k0_pay6
  exact congrArg Ideal.logistic
    (slice2_axis1_apply 256 (k0_pay4 z hk W3 U3 B3) slices_S64x768_o0_256_S64x256 p j ⟨j.val + 256, by omega⟩ (Nat.add_comm _ _))

/-- The candidate: the hyperbolic tangent of columns 512–767 of the 768. -/
theorem cand_apply (z : Vec Ideal S64x32x512 .f32) (hk : Vec Ideal S64x32x256 .f32) (W3 : Vec Ideal S768x512 .f32)
    (U3 : Vec Ideal S768x256 .f32) (B3 : Vec Ideal S768 .f32) (p : Fin 64) (j : Fin 256) :
    k0_pay7 z hk W3 U3 B3 (ix2 p j) = Ideal.tanh (k0_pay4 z hk W3 U3 B3 (ix2 p (⟨j.val + 512, by omega⟩ : Fin 768))) := by
  unfold k0_pay7
  exact congrArg Ideal.tanh
    (slice2_axis1_apply 512 (k0_pay4 z hk W3 U3 B3) slices_S64x768_o0_512_S64x256 p j ⟨j.val + 512, by omega⟩ (Nat.add_comm _ _))

/-! ## The forget gates, per child -/

/-- The nodes' rows flattened to 2048 rows: row p · 32 + n is row n of node p. -/
theorem flatNode_apply (z : Vec Ideal S64x32x512 .f32) (p : Fin 64) (n : Fin 32) (k : Fin 512) :
    k0_pay8 z (ix2 (flatRow p n) k) = z (ix3 p n k) := by
  unfold k0_pay8
  refine shapeCast_apply z shapeCasts_S64x32x512_S2048x512 (ix2 (flatRow p n) k) (ix3 p n k) ?_
  rw [Shape.rowMajor_val_three, Shape.rowMajor_val_two]
  rfl

/-- The children's hidden states flattened to 2048 rows: row p · 32 + n is child n of node p. -/
theorem flatChild_apply (hk : Vec Ideal S64x32x256 .f32) (p : Fin 64) (n : Fin 32) (k : Fin 256) :
    k0_pay9 hk (ix2 (flatRow p n) k) = hk (ix3 p n k) := by
  unfold k0_pay9
  refine shapeCast_apply hk shapeCasts_S64x32x256_S2048x256 (ix2 (flatRow p n) k) (ix3 p n k) ?_
  rw [Shape.rowMajor_val_three, Shape.rowMajor_val_two]
  rfl

/-- A [2048, 256] array viewed as [64, 32, 256], at (p, n, j): the array's row p · 32 + n. -/
theorem unflat_apply (x : FVec Ideal S2048x256 .f32) (h : S2048x256.ShapeCasts S64x32x256) (p : Fin 64) (n : Fin 32) (j : Fin 256) :
    shapeCast S64x32x256 x h (ix3 p n j) = x (ix2 (flatRow p n) j) := by
  refine shapeCast_apply x h (ix3 p n j) (ix2 (flatRow p n) j) ?_
  rw [Shape.rowMajor_val_three, Shape.rowMajor_val_two]
  rfl

/-- The forget gate's bias [256], viewed as [1, 1, 256] and repeated over nodes and children, at (p, n, j): its entry j. -/
theorem biasCube_apply (B : Vec Ideal S256 .f32) (h1 : S256.ShapeCasts S1x1x256) (h2 : S1x1x256.Broadcasts S64x32x256)
    (p : Fin 64) (n : Fin 32) (j : Fin 256) :
    broadcastTo S64x32x256 (shapeCast S1x1x256 B h1) h2 (ix3 p n j) = B (ix1 j) := by
  refine (broadcastTo_apply _ h2 (ix3 p n j) (ix3 (0 : Fin 1) (0 : Fin 1) j) fun a => ?_).trans ?_
  · match a with
    | ⟨0, _⟩ => rfl
    | ⟨1, _⟩ => rfl
    | ⟨2, _⟩ => rfl
  · refine shapeCast_apply B h1 (ix3 (0 : Fin 1) (0 : Fin 1) j) (ix1 j) ?_
    rw [Shape.rowMajor_val_three, Shape.rowMajor_val_one]
    show j.val = (0 * 1 + 0) * 256 + j.val
    omega

/-- The forget gate of child n of node p before the logistic function: row n of the node against Wf, the child's hidden
    state against Uf, plus the bias. -/
theorem forgetLin_apply (z : Vec Ideal S64x32x512 .f32) (hk : Vec Ideal S64x32x256 .f32) (Wf : Vec Ideal S256x512 .f32)
    (Uf : Vec Ideal S256x256 .f32) (p : Fin 64) (n : Fin 32) (j : Fin 256) :
    addf
        (matmul dot_S2048x512_S512x256_S2048x256_1_0_0_1_n_n none (k0_pay8 z)
          (transpose S512x256 [1, 0] (k0_pay10 Wf) transposes_S256x512_p1_0_S512x256) (constant (F := Ideal) S2048x256 .f32 0x00000000#32))
        (matmul dot_S2048x256_S256x256_S2048x256_1_0_0_1_n_n none (k0_pay9 hk)
          (transpose S256x256 [1, 0] (k0_pay11 Uf) transposes_S256x256_p1_0_S256x256) (constant (F := Ideal) S2048x256 .f32 0x00000000#32))
        (ix2 (flatRow p n) j)
      = (∑ k : Fin 512, z (ix3 p n k) * Wf (ix2 j k)) + (∑ k : Fin 256, hk (ix3 p n k) * Uf (ix2 j k)) := by
  refine (addf_apply _ _ _).trans (add_congr ?_ ?_)
  · refine (Cert.LibMatmulPlain.matmul_zero_apply _ none _ _ (flatRow p n) j).trans
      (Finset.sum_congr rfl fun k _ => mul_congr (flatNode_apply z p n k) ?_)
    exact plainT_apply Wf bitsLt_bf16_f32 transposes_S256x512_p1_0_S512x256 k j
  · refine (Cert.LibMatmulPlain.matmul_zero_apply _ none _ _ (flatRow p n) j).trans
      (Finset.sum_congr rfl fun k _ => mul_congr (flatChild_apply hk p n k) ?_)
    exact plainT_apply Uf bitsLt_bf16_f32 transposes_S256x256_p1_0_S256x256 k j

/-! ## The new memory cell and hidden state -/

theorem cell_apply (z : Vec Ideal S64x32x512 .f32) (hk ck : Vec Ideal S64x32x256 .f32) (Wf : Vec Ideal S256x512 .f32)
    (Uf : Vec Ideal S256x256 .f32) (Bf : Vec Ideal S256 .f32) (vi vu : FVec Ideal S64x256 .f32) (p : Fin 64) (j : Fin 256) :
    k0_pay1 ck vi vu (k0_pay8 z) (k0_pay9 hk) (k0_pay10 Wf) (k0_pay11 Uf) Bf (ix2 p j)
      = vi (ix2 p j) * vu (ix2 p j)
        + ∑ n : Fin 32, Ideal.logistic ((∑ k : Fin 512, z (ix3 p n k) * Wf (ix2 j k))
            + (∑ k : Fin 256, hk (ix3 p n k) * Uf (ix2 j k)) + Bf (ix1 j)) * ck (ix3 p n j) := by
  unfold k0_pay1
  refine (addf_apply _ _ (ix2 p j)).trans (add_congr (mulf_apply vi vu (ix2 p j)) ?_)
  refine (childAxisSum_apply _ reduces_S64x32x256_S64x256 _ _ p j).trans (Finset.sum_congr rfl fun n _ => ?_)
  refine (mulf_apply _ ck (ix3 p n j)).trans (mul_congr (congrArg Ideal.logistic ?_) rfl)
  refine (addf_apply _ _ (ix3 p n j)).trans (add_congr ?_ (biasCube_apply Bf shapeCasts_S256_S1x1x256 broadcasts_S1x1x256_S64x32x256 p n j))
  exact (unflat_apply _ shapeCasts_S2048x256_S64x32x256 p n j).trans (forgetLin_apply z hk Wf Uf p n j)

theorem hidden_apply (z : Vec Ideal S64x32x512 .f32) (hk ck : Vec Ideal S64x32x256 .f32) (Wf : Vec Ideal S256x512 .f32)
    (Uf : Vec Ideal S256x256 .f32) (Bf : Vec Ideal S256 .f32) (vi vo vu : FVec Ideal S64x256 .f32) (p : Fin 64) (j : Fin 256) :
    k0_pay2 ck vi vo vu (k0_pay8 z) (k0_pay9 hk) (k0_pay10 Wf) (k0_pay11 Uf) Bf (ix2 p j)
      = vo (ix2 p j) * Ideal.tanh (k0_pay1 ck vi vu (k0_pay8 z) (k0_pay9 hk) (k0_pay10 Wf) (k0_pay11 Uf) Bf (ix2 p j)) := by
  unfold k0_pay2
  rfl

end Cert.KernelIdeal.BodyValue

end
-- ==== Proof.CellValue.lean ====
/-
  The kernel's two results, as the tree-LSTM cell of the argument arrays.

  What the body leaves in the first result's staging buffer at point `t` is, entry by entry, block `t` of the
  specification's first result: the left half of row `p` is the hidden state of node `t·64 + p`, the right half its
  memory cell — the body's sums read over the blocks are the specification's sums read over the arrays, because a block's
  entry is the array's entry at the shifted node and a joined array's row is the gate's own row. The second result's
  buffer holds the children's hidden states summed. The 64 blocks cover each result array, so after the run each result
  array IS the specification's function of the arguments.
-/
import proofs.«173685_j4526895530471_2_alg».proof.Proof.CellBlocks
import proofs.«173685_j4526895530471_2_alg».proof.Proof.BodyValue
import proofs.«173685_j4526895530471_2_alg».proof.Proof.Spec
import proofs.«173685_j4526895530471_2_alg».proof.Proof.LibJoinThree
import Idealize.ShloMosaic.Lib.Pipeline.Value
import Idealize.ShloMosaic.Lib.ValueIdx
import Idealize.ShloMosaic.Lib.StableHlo.Run
import Idealize.ShloMosaic.Lib.Decide

set_option maxRecDepth 16384

noncomputable section

open scoped BigOperators

namespace Cert.KernelIdeal.CellValue

open Cert.KernelIdeal Cert.KernelIdeal.Gen Cert.KernelIdeal.Cell Cert.KernelIdeal.CellBlocks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The first result's block: two halves -/

section Halves
variable (x0 x1 : Vec Ideal S64x32x512 .f32) (x2 : Vec Ideal S768x512 .f32) (x3 : Vec Ideal S768x256 .f32) (x4 : Vec Ideal S768 .f32)
  (x5 : Vec Ideal S256x512 .f32) (x6 : Vec Ideal S256x256 .f32) (x7 : Vec Ideal S256 .f32)

/-- The right half of the block holds the memory cell: the later store. -/
theorem outBlock_right (p : Fin 64) (j : Fin 256) :
    outBlock x0 x1 x2 x3 x4 x5 x6 x7 (ix2 p (TreeCell.hi j)) = cellOf x0 x1 x2 x3 x4 x5 x6 x7 (ix2 p j) := by
  unfold outBlock
  have e : (ix2 p (TreeCell.hi j) : S64x512.Idx) = rOutC.emb (ix2 p j) := funext fun a => Fin.ext (by
    match a with
    | ⟨0, _⟩ => show p.val = 0 + 1 * p.val; omega
    | ⟨1, _⟩ => show j.val + 256 = 256 + 1 * j.val; omega)
  rw [e]
  exact View.canon_cons_emb _ _ _ _

/-- The left half holds the hidden state: the earlier store, which the later one does not touch. -/
theorem outBlock_left (p : Fin 64) (j : Fin 256) :
    outBlock x0 x1 x2 x3 x4 x5 x6 x7 (ix2 p (TreeCell.lo j)) = hiddenOf x0 x1 x2 x3 x4 x5 x6 x7 (ix2 p j) := by
  unfold outBlock
  have hn : (ix2 p (TreeCell.lo j) : S64x512.Idx) ∉ rOutC.set := by
    rw [Rect.mem_set_unit]
    intro h
    have h1 : (256 : Nat) ≤ j.val := (h 1).1
    have := j.isLt
    omega
  refine (View.canon_cons_of_not_mem (⟨rOutC, cellOf x0 x1 x2 x3 x4 x5 x6 x7⟩ : View.Piece (Elt Ideal) S64x512 .f32) [⟨rOutH, hiddenOf x0 x1 x2 x3 x4 x5 x6 x7⟩] hn).trans ?_
  have e : (ix2 p (TreeCell.lo j) : S64x512.Idx) = rOutH.emb (ix2 p j) := funext fun a => Fin.ext (by
    match a with
    | ⟨0, _⟩ => show p.val = 0 + 1 * p.val; omega
    | ⟨1, _⟩ => show j.val = 0 + 1 * j.val; omega)
  rw [e]
  exact View.canon_cons_emb _ _ _ _

theorem hz2 : (![0, 0] : Fin 2 → Nat) = fun _ => 0 := funext fun a => by fin_cases a <;> rfl

/-- The second result's block holds the one stored value. -/
theorem sumBlock_eq : sumBlock x1 = k0_pay3 (View.ld x1 rHk) := by
  unfold sumBlock
  exact View.canon_unit_zero hz2 _ _

end Halves

/-! ## The body's loads, read at coordinates of the blocks -/

section Loads
variable (c : Dev nD) (t : Fin cfg0.N)

theorem nodeRows_at (p : Fin 64) (n : Fin 32) (k : Fin 512) :
    View.ld (iblk m c 0 t : Vec Ideal S64x32x512 .f32) rZ (ix3 p n k) = (m ((c : Thread nD τ).loc main_arg0)) (ix3 (node t p) n k) := by
  have e : rZ.idx (ix3 p n k) = (ix3 p n k : S64x32x512.Idx) := funext fun a => Fin.ext (by
    match a with
    | ⟨0, _⟩ => show 0 + 1 * p.val = p.val; omega
    | ⟨1, _⟩ => show 0 + 1 * n.val = n.val; omega
    | ⟨2, _⟩ => show 0 + 1 * k.val = k.val; omega)
  exact (congrArg (iblk m c 0 t : Vec Ideal S64x32x512 .f32) e).trans (nodeBlock_apply m c t p n k)

theorem childHidden_at (p : Fin 64) (n : Fin 32) (k : Fin 256) :
    View.ld (iblk m c 1 t : Vec Ideal S64x32x512 .f32) rHk (ix3 p n k) = (m ((c : Thread nD τ).loc main_arg1)) (ix3 (node t p) n (TreeCell.lo k)) := by
  have e : rHk.idx (ix3 p n k) = (ix3 p n (TreeCell.lo k) : S64x32x512.Idx) := funext fun a => Fin.ext (by
    match a with
    | ⟨0, _⟩ => show 0 + 1 * p.val = p.val; omega
    | ⟨1, _⟩ => show 0 + 1 * n.val = n.val; omega
    | ⟨2, _⟩ => show 0 + 1 * k.val = k.val; omega)
  exact (congrArg (iblk m c 1 t : Vec Ideal S64x32x512 .f32) e).trans (childBlock_apply m c t p n (TreeCell.lo k))

theorem childCell_at (p : Fin 64) (n : Fin 32) (k : Fin 256) :
    View.ld (iblk m c 1 t : Vec Ideal S64x32x512 .f32) rCk (ix3 p n k) = (m ((c : Thread nD τ).loc main_arg1)) (ix3 (node t p) n (TreeCell.hi k)) := by
  have e : rCk.idx (ix3 p n k) = (ix3 p n (TreeCell.hi k) : S64x32x512.Idx) := funext fun a => Fin.ext (by
    match a with
    | ⟨0, _⟩ => show 0 + 1 * p.val = p.val; omega
    | ⟨1, _⟩ => show 0 + 1 * n.val = n.val; omega
    | ⟨2, _⟩ => show 256 + 1 * k.val = k.val + 256; omega)
  exact (congrArg (iblk m c 1 t : Vec Ideal S64x32x512 .f32) e).trans (childBlock_apply m c t p n (TreeCell.hi k))

theorem w3_at (g : Fin 768) (k : Fin 512) :
    View.ld (iblk m c 2 t : Vec Ideal S768x512 .f32) rW3 (ix2 g k) = V m c main_v0 (ix2 g k) := by
  have e : rW3.idx (ix2 g k) = (ix2 g k : S768x512.Idx) := funext fun a => Fin.ext (by
    match a with
    | ⟨0, _⟩ => show 0 + 1 * g.val = g.val; omega
    | ⟨1, _⟩ => show 0 + 1 * k.val = k.val; omega)
  exact (congrArg (iblk m c 2 t : Vec Ideal S768x512 .f32) e).trans (w3Block_apply m c t g k)

theorem u3_at (g : Fin 768) (k : Fin 256) :
    View.ld (iblk m c 3 t : Vec Ideal S768x256 .f32) rU3 (ix2 g k) = V m c main_v1 (ix2 g k) := by
  have e : rU3.idx (ix2 g k) = (ix2 g k : S768x256.Idx) := funext fun a => Fin.ext (by
    match a with
    | ⟨0, _⟩ => show 0 + 1 * g.val = g.val; omega
    | ⟨1, _⟩ => show 0 + 1 * k.val = k.val; omega)
  exact (congrArg (iblk m c 3 t : Vec Ideal S768x256 .f32) e).trans (u3Block_apply m c t g k)

theorem b3_at (g : Fin 768) :
    View.ld (iblk m c 4 t : Vec Ideal S768 .f32) rB3 (ix1 g) = V m c main_v2 (ix1 g) := by
  have e : rB3.idx (ix1 g) = (ix1 g : S768.Idx) := funext fun a => Fin.ext (by
    match a with
    | ⟨0, _⟩ => show 0 + 1 * g.val = g.val; omega)
  exact (congrArg (iblk m c 4 t : Vec Ideal S768 .f32) e).trans (b3Block_apply m c t g)

theorem wf_at (j : Fin 256) (k : Fin 512) :
    View.ld (iblk m c 5 t : Vec Ideal S256x512 .f32) rWf (ix2 j k) = (m ((c : Thread nD τ).loc main_arg5)) (ix2 j k) := by
  have e : rWf.idx (ix2 j k) = (ix2 j k : S256x512.Idx) := funext fun a => Fin.ext (by
    match a with
    | ⟨0, _⟩ => show 0 + 1 * j.val = j.val; omega
    | ⟨1, _⟩ => show 0 + 1 * k.val = k.val; omega)
  exact (congrArg (iblk m c 5 t : Vec Ideal S256x512 .f32) e).trans (wfBlock_apply m c t j k)

theorem uf_at (j : Fin 256) (k : Fin 256) :
    View.ld (iblk m c 6 t : Vec Ideal S256x256 .f32) rUf (ix2 j k) = (m ((c : Thread nD τ).loc main_arg6)) (ix2 j k) := by
  have e : rUf.idx (ix2 j k) = (ix2 j k : S256x256.Idx) := funext fun a => Fin.ext (by
    match a with
    | ⟨0, _⟩ => show 0 + 1 * j.val = j.val; omega
    | ⟨1, _⟩ => show 0 + 1 * k.val = k.val; omega)
  exact (congrArg (iblk m c 6 t : Vec Ideal S256x256 .f32) e).trans (ufBlock_apply m c t j k)

theorem bf_at (j : Fin 256) :
    View.ld (iblk m c 7 t : Vec Ideal S256 .f32) rBf (ix1 j) = (m ((c : Thread nD τ).loc main_arg7)) (ix1 j) := by
  have e : rBf.idx (ix1 j) = (ix1 j : S256.Idx) := funext fun a => Fin.ext (by
    match a with
    | ⟨0, _⟩ => show 0 + 1 * j.val = j.val; omega)
  exact (congrArg (iblk m c 7 t : Vec Ideal S256 .f32) e).trans (bfBlock_apply m c t j)

end Loads

/-! ## The body's values at a point are the specification's at the point's nodes -/

section Point
variable (c : Dev nD) (t : Fin cfg0.N) (p : Fin 64) (j : Fin 256)

/-- A node-level gate before its nonlinearity, read over the blocks at the gate's row of the joined arrays, is the
    specification's over the arrays: for gate `s` whose rows of the joined arrays are the arrays `Wg`, `Ug`, `βg`. -/
theorem lin_at (s : Fin 3) (Wg : FVec Ideal TreeCell.Sw .f32) (Ug : FVec Ideal TreeCell.Su .f32) (βg : FVec Ideal TreeCell.Sb .f32)
    (hW : ∀ (j : Fin 256) (k : Fin 512), V m c main_v0 (ix2 (gateRow s j) k) = Wg (ix2 j k))
    (hU : ∀ (j : Fin 256) (k : Fin 256), V m c main_v1 (ix2 (gateRow s j) k) = Ug (ix2 j k))
    (hB : ∀ (j : Fin 256), V m c main_v2 (ix1 (gateRow s j)) = βg (ix1 j))
    (g : Fin 768) (hg : g = gateRow s j) :
    k0_pay4 (View.ld (iblk m c 0 t : Vec Ideal S64x32x512 .f32) rZ) (View.ld (iblk m c 1 t : Vec Ideal S64x32x512 .f32) rHk) (View.ld (iblk m c 2 t : Vec Ideal S768x512 .f32) rW3) (View.ld (iblk m c 3 t : Vec Ideal S768x256 .f32) rU3) (View.ld (iblk m c 4 t : Vec Ideal S768 .f32) rB3) (ix2 p g)
      = TreeCell.nodeLin Wg Ug βg (m ((c : Thread nD τ).loc main_arg0)) (m ((c : Thread nD τ).loc main_arg1)) (node t p) j := by
  subst hg
  rw [BodyValue.lin_apply]
  unfold TreeCell.nodeLin TreeCell.childSum
  simp only [nodeRows_at, childHidden_at, w3_at, u3_at, b3_at, hW, hU, hB]

theorem inGate_at :
    k0_pay5 (View.ld (iblk m c 0 t : Vec Ideal S64x32x512 .f32) rZ) (View.ld (iblk m c 1 t : Vec Ideal S64x32x512 .f32) rHk) (View.ld (iblk m c 2 t : Vec Ideal S768x512 .f32) rW3) (View.ld (iblk m c 3 t : Vec Ideal S768x256 .f32) rU3) (View.ld (iblk m c 4 t : Vec Ideal S768 .f32) rB3) (ix2 p j)
      = Ideal.logistic (TreeCell.nodeLin (m ((c : Thread nD τ).loc main_arg2)) (m ((c : Thread nD τ).loc main_arg3)) (m ((c : Thread nD τ).loc main_arg4)) (m ((c : Thread nD τ).loc main_arg0)) (m ((c : Thread nD τ).loc main_arg1)) (node t p) j) := by
  rw [BodyValue.inGate_apply]
  exact congrArg Ideal.logistic (lin_at m c t p j 0 _ _ _ (joinedW_in m c) (joinedU_in m c) (joinedB_in m c) _
    (Fin.ext (by show j.val = 0 * 256 + j.val; omega)))

theorem outGate_at :
    k0_pay6 (View.ld (iblk m c 0 t : Vec Ideal S64x32x512 .f32) rZ) (View.ld (iblk m c 1 t : Vec Ideal S64x32x512 .f32) rHk) (View.ld (iblk m c 2 t : Vec Ideal S768x512 .f32) rW3) (View.ld (iblk m c 3 t : Vec Ideal S768x256 .f32) rU3) (View.ld (iblk m c 4 t : Vec Ideal S768 .f32) rB3) (ix2 p j)
      = Ideal.logistic (TreeCell.nodeLin (m ((c : Thread nD τ).loc main_arg8)) (m ((c : Thread nD τ).loc main_arg9)) (m ((c : Thread nD τ).loc main_arg10)) (m ((c : Thread nD τ).loc main_arg0)) (m ((c : Thread nD τ).loc main_arg1)) (node t p) j) := by
  rw [BodyValue.outGate_apply]
  exact congrArg Ideal.logistic (lin_at m c t p j 1 _ _ _ (joinedW_out m c) (joinedU_out m c) (joinedB_out m c) _
    (Fin.ext (by show j.val + 256 = 1 * 256 + j.val; omega)))

theorem cand_at :
    k0_pay7 (View.ld (iblk m c 0 t : Vec Ideal S64x32x512 .f32) rZ) (View.ld (iblk m c 1 t : Vec Ideal S64x32x512 .f32) rHk) (View.ld (iblk m c 2 t : Vec Ideal S768x512 .f32) rW3) (View.ld (iblk m c 3 t : Vec Ideal S768x256 .f32) rU3) (View.ld (iblk m c 4 t : Vec Ideal S768 .f32) rB3) (ix2 p j)
      = Ideal.tanh (TreeCell.nodeLin (m ((c : Thread nD τ).loc main_arg11)) (m ((c : Thread nD τ).loc main_arg12)) (m ((c : Thread nD τ).loc main_arg13)) (m ((c : Thread nD τ).loc main_arg0)) (m ((c : Thread nD τ).loc main_arg1)) (node t p) j) := by
  rw [BodyValue.cand_apply]
  exact congrArg Ideal.tanh (lin_at m c t p j 2 _ _ _ (joinedW_cand m c) (joinedU_cand m c) (joinedB_cand m c) _
    (Fin.ext (by show j.val + 512 = 2 * 256 + j.val; omega)))

/-- The memory cell the body stores for node `p` of block `t` is the specification's for node `t·64 + p`. -/
theorem cell_at :
    cellOf (iblk m c 0 t) (iblk m c 1 t) (iblk m c 2 t) (iblk m c 3 t) (iblk m c 4 t) (iblk m c 5 t) (iblk m c 6 t) (iblk m c 7 t) (ix2 p j) = TreeCell.cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (node t p) j := by
  unfold cellOf
  rw [BodyValue.cell_apply]
  unfold TreeCell.cell TreeCell.forgetLin
  refine BodyValue.add_congr (BodyValue.mul_congr (inGate_at m c t p j) (cand_at m c t p j)) ?_
  simp only [nodeRows_at, childHidden_at, childCell_at, wf_at, uf_at, bf_at]

/-- The hidden state the body stores for node `p` of block `t` is the specification's for node `t·64 + p`. -/
theorem hidden_at :
    hiddenOf (iblk m c 0 t) (iblk m c 1 t) (iblk m c 2 t) (iblk m c 3 t) (iblk m c 4 t) (iblk m c 5 t) (iblk m c 6 t) (iblk m c 7 t) (ix2 p j) = TreeCell.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (node t p) j := by
  unfold hiddenOf
  rw [BodyValue.hidden_apply]
  unfold TreeCell.hidden
  exact BodyValue.mul_congr (outGate_at m c t p j) (congrArg Ideal.tanh (cell_at m c t p j))

/-- The children's hidden states the body sums for node `p` of block `t` are the specification's for node `t·64 + p`. -/
theorem sum_at :
    sumBlock (iblk m c 1 t) (ix2 p j) = TreeCell.childSum (m ((c : Thread nD τ).loc main_arg1)) (node t p) j := by
  rw [sumBlock_eq, BodyValue.sum_apply]
  unfold TreeCell.childSum
  simp only [childHidden_at]

end Point

/-! ## The specification's first result, by halves -/

theorem out_left (zn zc : FVec Ideal TreeCell.Sz .f32)
    (Wi : FVec Ideal TreeCell.Sw .f32) (Ui : FVec Ideal TreeCell.Su .f32) (βi : FVec Ideal TreeCell.Sb .f32)
    (Wf : FVec Ideal TreeCell.Sw .f32) (Uf : FVec Ideal TreeCell.Su .f32) (βf : FVec Ideal TreeCell.Sb .f32)
    (Wo : FVec Ideal TreeCell.Sw .f32) (Uo : FVec Ideal TreeCell.Su .f32) (βo : FVec Ideal TreeCell.Sb .f32)
    (Wu : FVec Ideal TreeCell.Sw .f32) (Uu : FVec Ideal TreeCell.Su .f32) (βu : FVec Ideal TreeCell.Sb .f32) (b : Fin 4096) (j : Fin 256) :
    TreeCell.out zn zc Wi Ui βi Wf Uf βf Wo Uo βo Wu Uu βu (ix2 b (TreeCell.lo j)) = TreeCell.hidden zn zc Wi Ui βi Wf Uf βf Wo Uo βo Wu Uu βu b j := by
  unfold TreeCell.out
  exact dif_pos (show (TreeCell.lo j).val < 256 from j.isLt)

theorem out_right (zn zc : FVec Ideal TreeCell.Sz .f32)
    (Wi : FVec Ideal TreeCell.Sw .f32) (Ui : FVec Ideal TreeCell.Su .f32) (βi : FVec Ideal TreeCell.Sb .f32)
    (Wf : FVec Ideal TreeCell.Sw .f32) (Uf : FVec Ideal TreeCell.Su .f32) (βf : FVec Ideal TreeCell.Sb .f32)
    (Wo : FVec Ideal TreeCell.Sw .f32) (Uo : FVec Ideal TreeCell.Su .f32) (βo : FVec Ideal TreeCell.Sb .f32)
    (Wu : FVec Ideal TreeCell.Sw .f32) (Uu : FVec Ideal TreeCell.Su .f32) (βu : FVec Ideal TreeCell.Sb .f32) (b : Fin 4096) (j : Fin 256) :
    TreeCell.out zn zc Wi Ui βi Wf Uf βf Wo Uo βo Wu Uu βu (ix2 b (TreeCell.hi j)) = TreeCell.cell zn zc Wi Ui βi Wf Uf βf Wu Uu βu b j := by
  unfold TreeCell.out
  refine (dif_neg (show ¬ (TreeCell.hi j).val < 256 from by show ¬ (j.val + 256 < 256); omega)).trans ?_
  exact congrArg (TreeCell.cell zn zc Wi Ui βi Wf Uf βf Wu Uu βu b) (Fin.ext (by show j.val + 256 - 256 = j.val; omega))

/-! ## What each point writes back -/

/-- Point `t` writes back block `t` of the specification's first result. -/
theorem flushed_out (c : Dev nD) (t : Fin cfg0.N) :
    (dats m 0 c).flushed 8 t = ((cfg0.win 8).blk t).view.read (Elt Ideal) (TreeCell.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  show (cfg0.win 8).cut (grid0.coords t) ((dats m 0 c).after 8 t) = _
  rw [after8]
  funext y
  obtain ⟨p, q, rfl⟩ : ∃ (p : Fin 64) (q : Fin 512), y = ix2 p q := ⟨y 0, y 1, eq_ix2 y⟩
  have er : ((cfg0.win 8).blk t).view.emb (ix2 p q) = (ix2 (node t p) q : S4096x512.Idx) := funext fun a => Fin.ext (by
    obtain ⟨-, -, -, -, -, -, -, -, ⟨e0, e1⟩, -⟩ := idx_facts t
    match a with
    | ⟨0, _⟩ => show win0_8.index t (0 : Fin 2) * 64 + 1 * p.val = t.val * 64 + p.val; omega
    | ⟨1, _⟩ => show win0_8.index t (1 : Fin 2) * 512 + 1 * q.val = q.val; omega)
  show outBlock (iblk m c 0 t) (iblk m c 1 t) (iblk m c 2 t) (iblk m c 3 t) (iblk m c 4 t) (iblk m c 5 t) (iblk m c 6 t) (iblk m c 7 t) (ix2 p q) = TreeCell.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (((cfg0.win 8).blk t).view.emb (ix2 p q))
  rw [er]
  by_cases hq : q.val < 256
  · obtain ⟨j, rfl⟩ : ∃ j : Fin 256, q = TreeCell.lo j := ⟨⟨q.val, hq⟩, Fin.ext rfl⟩
    rw [outBlock_left, out_left]
    exact hidden_at m c t p j
  · obtain ⟨j, rfl⟩ : ∃ j : Fin 256, q = TreeCell.hi j :=
      ⟨⟨q.val - 256, by have := q.isLt; omega⟩, Fin.ext (by show q.val = q.val - 256 + 256; omega)⟩
    rw [outBlock_right, out_right]
    exact cell_at m c t p j

/-- Point `t` writes back block `t` of the specification's second result. -/
theorem flushed_sum (c : Dev nD) (t : Fin cfg0.N) :
    (dats m 0 c).flushed 9 t = ((cfg0.win 9).blk t).view.read (Elt Ideal) (TreeCell.htilde (m ((c : Thread nD τ).loc main_arg1))) := by
  show (cfg0.win 9).cut (grid0.coords t) ((dats m 0 c).after 9 t) = _
  rw [after9]
  funext y
  obtain ⟨p, j, rfl⟩ : ∃ (p : Fin 64) (j : Fin 256), y = ix2 p j := ⟨y 0, y 1, eq_ix2 y⟩
  have er : ((cfg0.win 9).blk t).view.emb (ix2 p j) = (ix2 (node t p) j : S4096x256.Idx) := funext fun a => Fin.ext (by
    obtain ⟨-, -, -, -, -, -, -, -, -, ⟨e0, e1⟩⟩ := idx_facts t
    match a with
    | ⟨0, _⟩ => show win0_9.index t (0 : Fin 2) * 64 + 1 * p.val = t.val * 64 + p.val; omega
    | ⟨1, _⟩ => show win0_9.index t (1 : Fin 2) * 256 + 1 * j.val = j.val; omega)
  show sumBlock (iblk m c 1 t) (ix2 p j) = TreeCell.htilde (m ((c : Thread nD τ).loc main_arg1)) (((cfg0.win 9).blk t).view.emb (ix2 p j))
  rw [er]
  exact sum_at m c t p j

/-! ## The blocks cover the result arrays -/

/-- An entry of the first result is in point `t`'s block iff each coordinate is in the block's range. -/
theorem mem_outBlk (t : Fin cfg0.N) (i : S4096x512.Idx) :
    i ∈ ((cfg0.win 8).blk t).view.set ↔ ∀ a : Fin 2, win0_8.index t a * S64x512.size a ≤ (i a).val ∧ (i a).val < win0_8.index t a * S64x512.size a + S64x512.size a := by
  show i ∈ ((View.whole main_v3_0).slice (win0_8.rect t)).set ↔ _
  rw [View.set_slice_whole, Rect.mem_set_unit]
  exact Iff.rfl

theorem mem_sumBlk (t : Fin cfg0.N) (i : S4096x256.Idx) :
    i ∈ ((cfg0.win 9).blk t).view.set ↔ ∀ a : Fin 2, win0_9.index t a * S64x256.size a ≤ (i a).val ∧ (i a).val < win0_9.index t a * S64x256.size a + S64x256.size a := by
  show i ∈ ((View.whole main_v3_1).slice (win0_9.rect t)).set ↔ _
  rw [View.set_slice_whole, Rect.mem_set_unit]
  exact Iff.rfl

/-- The point whose block holds node `b`: `b / 64`. -/
def pointOf (b : Fin 4096) : Fin cfg0.N := Fin.cast N_0.symm ⟨b.val / 64, by have := b.isLt; omega⟩

theorem pointOf_val (b : Fin 4096) : (pointOf b).val = b.val / 64 := rfl

/-- Every entry of the first result lies in the block of its node's point. -/
theorem cover_out (i : S4096x512.Idx) : ∃ t : Fin cfg0.N, (cfg0.win 8).flush t = true ∧ i ∈ ((cfg0.win 8).blk t).view.set := by
  refine ⟨pointOf (i 0), flush0_8 _, ?_⟩
  rw [mem_outBlk]
  obtain ⟨-, -, -, -, -, -, -, -, ⟨e0, e1⟩, -⟩ := idx_facts (pointOf (i 0))
  have hv := pointOf_val (i 0)
  have h0 : (i 0).val < 4096 := (i 0).isLt
  have h1 : (i 1).val < 512 := (i 1).isLt
  intro a
  match a with
  | ⟨0, _⟩ => show win0_8.index (pointOf (i 0)) (0 : Fin 2) * 64 ≤ (i 0).val ∧ (i 0).val < win0_8.index (pointOf (i 0)) (0 : Fin 2) * 64 + 64; omega
  | ⟨1, _⟩ => show win0_8.index (pointOf (i 0)) (1 : Fin 2) * 512 ≤ (i 1).val ∧ (i 1).val < win0_8.index (pointOf (i 0)) (1 : Fin 2) * 512 + 512; omega

/-- Every entry of the second result lies in the block of its node's point. -/
theorem cover_sum (i : S4096x256.Idx) : ∃ t : Fin cfg0.N, (cfg0.win 9).flush t = true ∧ i ∈ ((cfg0.win 9).blk t).view.set := by
  refine ⟨pointOf (i 0), flush0_9 _, ?_⟩
  rw [mem_sumBlk]
  obtain ⟨-, -, -, -, -, -, -, -, -, ⟨e0, e1⟩⟩ := idx_facts (pointOf (i 0))
  have hv := pointOf_val (i 0)
  have h0 : (i 0).val < 4096 := (i 0).isLt
  have h1 : (i 1).val < 256 := (i 1).isLt
  intro a
  match a with
  | ⟨0, _⟩ => show win0_9.index (pointOf (i 0)) (0 : Fin 2) * 64 ≤ (i 0).val ∧ (i 0).val < win0_9.index (pointOf (i 0)) (0 : Fin 2) * 64 + 64; omega
  | ⟨1, _⟩ => show win0_9.index (pointOf (i 0)) (1 : Fin 2) * 256 ≤ (i 1).val ∧ (i 1).val < win0_9.index (pointOf (i 0)) (1 : Fin 2) * 256 + 256; omega

/-! ## The result arrays after the run -/

/-- The first result array ends at the specification's first result of the arguments. -/
theorem final_out (c : Dev nD) : (dats m 0 c).arrAt 8 cfg0.N = TreeCell.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (dats m 0 c).arrAt_eq_of_cover 8 _ (fun t _ => flushed_out m c t) cover_out

/-- The second result array ends at the children's hidden states, summed. -/
theorem final_sum (c : Dev nD) : (dats m 0 c).arrAt 9 cfg0.N = TreeCell.htilde (m ((c : Thread nD τ).loc main_arg1)) :=
  (dats m 0 c).arrAt_eq_of_cover 9 _ (fun t _ => flushed_sum m c t) cover_sum

/-- The run, read: the program terminates with its two results at the specification's functions of the argument arrays,
    and the argument arrays as given. -/
theorem run : θ_run defs (onTc (τ := τ) (main (F := Ideal))) ⟨m, fun _ => 0, ρ⟩ fun r => ∀ c : Dev nD,
      r.2.mem ((c.tc : Thread nD τ).loc main_v3_0) = TreeCell.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_v3_1) = TreeCell.htilde (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨((h c).1 8).trans (final_out m c), ((h c).1 9).trans (final_sum m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩)
    (run_main m ρ)

end Cert.KernelIdeal.CellValue

end
-- ==== Proof.RefSide.lean ====
/-
  The reference's side of the bridge: its run read one operation at a time, index by index, at the extended reals.

  Each stage of the reference is read at an index given by its coordinates and identified with the matching piece of the
  tree-structured cell: the summed children, the node-level gates before and after their nonlinearities, the per-child
  forget gate, the new memory cell, the new hidden state, and last the two halves of the first result.
-/
import proofs.«173685_j4526895530471_2_alg».proof.Proof.Gen.ReferenceIdeal.Read
import proofs.«173685_j4526895530471_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefSide

open Cert.ReferenceIdeal Cert.ReferenceIdeal.Gen Cert.ReferenceIdeal.Read Idealize.ShloMosaic Idealize.ShloMosaic.ValueIdx Idealize.SL.Sem

/-- The binary32 word of one denotes the extended real one. -/
theorem ofBits_one_f32 : Ideal.ofBits .f32 0x3F800000#32 = 1 := by
  simp [Ideal.ofBits, Ideal.ieee, -EReal.coe_mul]; norm_num

/-! ## The node's first row and the summed children -/

/-- The node's first row as a matrix: its entry (b, k) is the node array at (b, 0, k). -/
theorem v1_at (x0 : FVec Ideal S4096x32x512 .f32) (b : Fin 4096) (k : Fin 512) :
    val_main_v1 (F := Ideal) x0 (ix2 b k) = x0 (ix3 b (0 : Fin 32) k) := by
  rw [val_main_v1_apply, val_main_v0_apply]
  congr 1
  funext a
  apply Fin.ext
  match a with
  | ⟨0, _⟩ => show (b.val * 512 + k.val) / 512 = b.val; omega
  | ⟨1, _⟩ => rfl
  | ⟨2, _⟩ => show (b.val * 512 + k.val) % 512 = k.val; omega

/-- The sum over the children of the left half of their rows is the summed hidden state. -/
theorem v4_at (x1 : FVec Ideal S4096x32x512 .f32) (b : Fin 4096) (j : Fin 256) :
    val_main_v4 (F := Ideal) x1 (ix2 b j) = TreeCell.childSum x1 b j := by
  rw [val_main_v4_apply, val_main_cst_apply, Ideal.ofBits_def, Ideal.ofBits_zero_f32, zero_add]
  unfold TreeCell.childSum
  refine Finset.sum_congr rfl fun n _ => ?_
  rw [val_main_v2_apply]
  congr 1
  funext a
  apply Fin.ext
  match a with
  | ⟨0, _⟩ => rfl
  | ⟨1, _⟩ => rfl
  | ⟨2, _⟩ => rfl

/-! ## A node-level gate before its nonlinearity -/

/-- The node's first row against the transposed input weight. -/
theorem v6_at (x0 : FVec Ideal S4096x32x512 .f32) (W : FVec Ideal S256x512 .f32) (b : Fin 4096) (j : Fin 256) :
    val_main_v6 (F := Ideal) x0 W (ix2 b j) = ∑ k : Fin 512, x0 (ix3 b (0 : Fin 32) k) * W (ix2 j k) := by
  rw [val_main_v6_apply]
  refine Finset.sum_congr rfl fun k _ => ?_
  have hl : lidx_main_v6 (ix2 b j) k = ix2 b k :=
    funext fun a => Fin.ext (by match a with | ⟨0, _⟩ => rfl | ⟨1, _⟩ => rfl)
  have hr : idx_main_v5 (ridx_main_v6 (ix2 b j) k) = ix2 j k :=
    funext fun a => Fin.ext (by match a with | ⟨0, _⟩ => rfl | ⟨1, _⟩ => rfl)
  rw [hl, v1_at, val_main_v5_apply, hr]

/-- The summed children against the transposed recurrent weight. -/
theorem v8_at (x1 : FVec Ideal S4096x32x512 .f32) (U : FVec Ideal S256x256 .f32) (b : Fin 4096) (j : Fin 256) :
    val_main_v8 (F := Ideal) x1 U (ix2 b j) = ∑ k : Fin 256, TreeCell.childSum x1 b k * U (ix2 j k) := by
  rw [val_main_v8_apply]
  refine Finset.sum_congr rfl fun k _ => ?_
  have hl : lidx_main_v8 (ix2 b j) k = ix2 b k :=
    funext fun a => Fin.ext (by match a with | ⟨0, _⟩ => rfl | ⟨1, _⟩ => rfl)
  have hr : idx_main_v7 (ridx_main_v8 (ix2 b j) k) = ix2 j k :=
    funext fun a => Fin.ext (by match a with | ⟨0, _⟩ => rfl | ⟨1, _⟩ => rfl)
  rw [hl, v4_at, val_main_v7_apply, hr]

/-- The bias, repeated along the nodes. -/
theorem v11_at (β : FVec Ideal S256 .f32) (b : Fin 4096) (j : Fin 256) :
    val_main_v11 (F := Ideal) β (ix2 b j) = β (ix1 j) := by
  rw [val_main_v11_apply, val_main_v10_apply]
  congr 1
  funext a
  apply Fin.ext
  match a with
  | ⟨0, _⟩ => rfl

/-- The two products and the bias, added in the order the gate is defined. -/
theorem v12_at (x0 x1 : FVec Ideal S4096x32x512 .f32) (W : FVec Ideal S256x512 .f32) (U : FVec Ideal S256x256 .f32)
    (β : FVec Ideal S256 .f32) (b : Fin 4096) (j : Fin 256) :
    val_main_v12 (F := Ideal) x0 x1 W U β (ix2 b j) = TreeCell.nodeLin W U β x0 x1 b j := by
  rw [val_main_v12_apply, val_main_v9_apply, v6_at, v8_at, v11_at]
  rfl

/-- The logistic function of a node-level gate, spelled as the quotient of one by one plus the exponential of the opposite. -/
theorem v18_at (x0 x1 : FVec Ideal S4096x32x512 .f32) (W : FVec Ideal S256x512 .f32) (U : FVec Ideal S256x256 .f32)
    (β : FVec Ideal S256 .f32) (b : Fin 4096) (j : Fin 256) :
    val_main_v18 (F := Ideal) x0 x1 W U β (ix2 b j) = Ideal.logistic (TreeCell.nodeLin W U β x0 x1 b j) := by
  rw [val_main_v18_apply, val_main_v17_apply, val_main_cst_1_apply, val_main_v16_apply, val_main_v15_apply,
    val_main_cst_0_apply, val_main_v14_apply, val_main_v13_apply, v12_at]
  simp only [Ideal.hostDivf_def, Ideal.addf_def, Ideal.hostUnary_exp_def, Ideal.ofBits_def, ofBits_one_f32]
  rfl

/-- The output gate is the same composition of operations as the input gate, at its own weights. -/
theorem v44_eq (x0 x1 : FVec Ideal S4096x32x512 .f32) (W : FVec Ideal S256x512 .f32) (U : FVec Ideal S256x256 .f32)
    (β : FVec Ideal S256 .f32) :
    val_main_v44 (F := Ideal) x0 x1 W U β = val_main_v18 (F := Ideal) x0 x1 W U β := rfl

/-- The candidate's gate before the hyperbolic tangent is the same composition as the input gate's before the logistic. -/
theorem v52_eq (x0 x1 : FVec Ideal S4096x32x512 .f32) (W : FVec Ideal S256x512 .f32) (U : FVec Ideal S256x256 .f32)
    (β : FVec Ideal S256 .f32) :
    val_main_v52 (F := Ideal) x0 x1 W U β = val_main_v12 (F := Ideal) x0 x1 W U β := rfl

/-! ## The per-child forget gate -/

/-- Every row of the node against the input weight. -/
theorem v19_at (x0 : FVec Ideal S4096x32x512 .f32) (W : FVec Ideal S256x512 .f32) (b : Fin 4096) (n : Fin 32) (j : Fin 256) :
    val_main_v19 (F := Ideal) x0 W (ix3 b n j) = ∑ k : Fin 512, x0 (ix3 b n k) * W (ix2 j k) := by
  rw [val_main_v19_apply]
  refine Finset.sum_congr rfl fun k _ => ?_
  have hl : lidx_main_v19 (ix3 b n j) k = ix3 b n k :=
    funext fun a => Fin.ext (by match a with | ⟨0, _⟩ => rfl | ⟨1, _⟩ => rfl | ⟨2, _⟩ => rfl)
  have hr : ridx_main_v19 (ix3 b n j) k = ix2 j k :=
    funext fun a => Fin.ext (by match a with | ⟨0, _⟩ => rfl | ⟨1, _⟩ => rfl)
  rw [hl, hr]

/-- Every child's hidden state against the recurrent weight. -/
theorem v20_at (x1 : FVec Ideal S4096x32x512 .f32) (U : FVec Ideal S256x256 .f32) (b : Fin 4096) (n : Fin 32) (j : Fin 256) :
    val_main_v20 (F := Ideal) x1 U (ix3 b n j) = ∑ k : Fin 256, x1 (ix3 b n (TreeCell.lo k)) * U (ix2 j k) := by
  rw [val_main_v20_apply]
  refine Finset.sum_congr rfl fun k _ => ?_
  have hl : idx_main_v2 (lidx_main_v20 (ix3 b n j) k) = ix3 b n (TreeCell.lo k) :=
    funext fun a => Fin.ext (by match a with | ⟨0, _⟩ => rfl | ⟨1, _⟩ => rfl | ⟨2, _⟩ => rfl)
  have hr : ridx_main_v20 (ix3 b n j) k = ix2 j k :=
    funext fun a => Fin.ext (by match a with | ⟨0, _⟩ => rfl | ⟨1, _⟩ => rfl)
  rw [val_main_v2_apply, hl, hr]

/-- The bias, repeated along the nodes and the children. -/
theorem v23_at (β : FVec Ideal S256 .f32) (b : Fin 4096) (n : Fin 32) (j : Fin 256) :
    val_main_v23 (F := Ideal) β (ix3 b n j) = β (ix1 j) := by
  rw [val_main_v23_apply, val_main_v22_apply]
  congr 1
  funext a
  apply Fin.ext
  match a with
  | ⟨0, _⟩ => rfl

/-- The logistic function of the per-child gate. -/
theorem v30_at (x0 x1 : FVec Ideal S4096x32x512 .f32) (W : FVec Ideal S256x512 .f32) (U : FVec Ideal S256x256 .f32)
    (β : FVec Ideal S256 .f32) (b : Fin 4096) (n : Fin 32) (j : Fin 256) :
    val_main_v30 (F := Ideal) x0 x1 W U β (ix3 b n j) = Ideal.logistic (TreeCell.forgetLin W U β x0 x1 b n j) := by
  rw [val_main_v30_apply, val_main_v29_apply, val_main_cst_3_apply, val_main_v28_apply, val_main_v27_apply,
    val_main_cst_2_apply, val_main_v26_apply, val_main_v25_apply, val_main_v24_apply, val_main_v21_apply,
    v19_at, v20_at, v23_at]
  simp only [Ideal.hostDivf_def, Ideal.addf_def, Ideal.hostUnary_exp_def, Ideal.ofBits_def, ofBits_one_f32]
  rfl

/-! ## The new memory cell and the new hidden state -/

/-- The children's memory cells, each weighted by its forget gate, summed over the children. -/
theorem v56_at (x0 x1 : FVec Ideal S4096x32x512 .f32) (W : FVec Ideal S256x512 .f32) (U : FVec Ideal S256x256 .f32)
    (β : FVec Ideal S256 .f32) (b : Fin 4096) (j : Fin 256) :
    val_main_v56 (F := Ideal) x0 x1 W U β (ix2 b j)
      = ∑ n : Fin 32, Ideal.logistic (TreeCell.forgetLin W U β x0 x1 b n j) * x1 (ix3 b n (TreeCell.hi j)) := by
  rw [val_main_v56_apply, val_main_cst_6_apply, Ideal.ofBits_def, Ideal.ofBits_zero_f32, zero_add]
  refine Finset.sum_congr rfl fun n _ => ?_
  have hi : idx_main_v56 (ix2 b j) n = ix3 b n j :=
    funext fun a => Fin.ext (by match a with | ⟨0, _⟩ => rfl | ⟨1, _⟩ => rfl | ⟨2, _⟩ => rfl)
  have h3 : idx_main_v3 (ix3 b n j) = ix3 b n (TreeCell.hi j) :=
    funext fun a => Fin.ext (by
      match a with
      | ⟨0, _⟩ => rfl
      | ⟨1, _⟩ => rfl
      | ⟨2, _⟩ => exact Nat.add_comm 256 j.val)
  rw [hi, val_main_v55_apply, v30_at, val_main_v3_apply, h3]
  rfl

/-- The new memory cell. -/
theorem v57_at (x0 x1 : FVec Ideal S4096x32x512 .f32)
    (Wi : FVec Ideal S256x512 .f32) (Ui : FVec Ideal S256x256 .f32) (βi : FVec Ideal S256 .f32)
    (Wf : FVec Ideal S256x512 .f32) (Uf : FVec Ideal S256x256 .f32) (βf : FVec Ideal S256 .f32)
    (Wu : FVec Ideal S256x512 .f32) (Uu : FVec Ideal S256x256 .f32) (βu : FVec Ideal S256 .f32)
    (b : Fin 4096) (j : Fin 256) :
    val_main_v57 (F := Ideal) x0 x1 Wi Ui βi Wf Uf βf Wu Uu βu (ix2 b j)
      = TreeCell.cell x0 x1 Wi Ui βi Wf Uf βf Wu Uu βu b j := by
  rw [val_main_v57_apply, val_main_v54_apply, v18_at, val_main_v53_apply, v52_eq, v12_at, v56_at]
  rfl

/-- The new hidden state. -/
theorem v59_at (x0 x1 : FVec Ideal S4096x32x512 .f32)
    (Wi : FVec Ideal S256x512 .f32) (Ui : FVec Ideal S256x256 .f32) (βi : FVec Ideal S256 .f32)
    (Wf : FVec Ideal S256x512 .f32) (Uf : FVec Ideal S256x256 .f32) (βf : FVec Ideal S256 .f32)
    (Wo : FVec Ideal S256x512 .f32) (Uo : FVec Ideal S256x256 .f32) (βo : FVec Ideal S256 .f32)
    (Wu : FVec Ideal S256x512 .f32) (Uu : FVec Ideal S256x256 .f32) (βu : FVec Ideal S256 .f32)
    (b : Fin 4096) (j : Fin 256) :
    val_main_v59 (F := Ideal) x0 x1 Wi Ui βi Wf Uf βf Wo Uo βo Wu Uu βu (ix2 b j)
      = TreeCell.hidden x0 x1 Wi Ui βi Wf Uf βf Wo Uo βo Wu Uu βu b j := by
  rw [val_main_v59_apply, v44_eq, v18_at, val_main_v58_apply, v57_at]
  rfl

/-! ## The two results -/

/-- The first result over variables: the joined array holds the hidden state where the column is below 256 and the
    memory cell, at the column less 256, elsewhere. -/
theorem v60_eq_out (x0 x1 : FVec Ideal S4096x32x512 .f32)
    (Wi : FVec Ideal S256x512 .f32) (Ui : FVec Ideal S256x256 .f32) (βi : FVec Ideal S256 .f32)
    (Wf : FVec Ideal S256x512 .f32) (Uf : FVec Ideal S256x256 .f32) (βf : FVec Ideal S256 .f32)
    (Wo : FVec Ideal S256x512 .f32) (Uo : FVec Ideal S256x256 .f32) (βo : FVec Ideal S256 .f32)
    (Wu : FVec Ideal S256x512 .f32) (Uu : FVec Ideal S256x256 .f32) (βu : FVec Ideal S256 .f32) :
    val_main_v60 (F := Ideal) x0 x1 Wi Ui βi Wf Uf βf Wo Uo βo Wu Uu βu
      = TreeCell.out x0 x1 Wi Ui βi Wf Uf βf Wo Uo βo Wu Uu βu := by
  funext i
  unfold val_main_v60 TreeCell.out
  by_cases h : (i 1).val < 256
  · rw [dif_pos h,
      concatenate_pair_apply_left (1 : Fin S4096x512.rank) _ _ concatenates_S4096x256_S4096x256_S4096x512_d1 i rfl
        (ix2 (i 0) ⟨(i 1).val, h⟩) (fun a => by match a with | ⟨0, _⟩ => rfl | ⟨1, _⟩ => rfl)]
    exact v59_at x0 x1 Wi Ui βi Wf Uf βf Wo Uo βo Wu Uu βu (i 0) ⟨(i 1).val, h⟩
  · have h1 : (i 1).val < 512 := (i 1).isLt
    rw [dif_neg h,
      concatenate_pair_apply_right (1 : Fin S4096x512.rank) _ _ concatenates_S4096x256_S4096x256_S4096x512_d1 i rfl rfl
        (ix2 (i 0) ⟨(i 1).val - 256, by omega⟩)
        (fun a ha => by
          match a, ha with
          | ⟨0, _⟩, _ => rfl
          | ⟨1, _⟩, ha => exact absurd rfl ha)
        (by show (i 1).val - 256 + 256 = (i 1).val; omega)]
    exact v57_at x0 x1 Wi Ui βi Wf Uf βf Wu Uu βu (i 0) ⟨(i 1).val - 256, by omega⟩

/-- The second result: the term the run states for it is the summed hidden state of the children. -/
theorem htilde_eq (x1 : FVec Ideal S4096x32x512 .f32) :
    Host.reduceAdd (F := Ideal) (extractStridedSlice S4096x32x256 ![0, 0, 0] x1 slices_S4096x32x512_S4096x32x256_0_0_0)
        (constant (F := Ideal) S_ .f32 0x00000000#32) reducesTo_S4096x32x256_S4096x256_d1 h_S_
      = TreeCell.htilde x1 := by
  rw [val_main_v4_eq]
  funext i
  obtain ⟨b, j, rfl⟩ : ∃ (b : Fin 4096) (j : Fin 256), i = ix2 b j := ⟨i 0, i 1, eq_ix2 i⟩
  exact v4_at x1 b j

/-- The first result: the term the run states for it is the cell's first result at the fourteen arguments. -/
theorem out_eq (m : (ℓ : Loc nD τ sig) → Buf (Elt Ideal) ℓ) (c : Dev nD) :
    Cert.ReferenceIdeal.Value.res_main_v60 (F := Ideal) m c
      = TreeCell.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13)) := by
  rw [val_main_v60_eq]
  exact v60_eq_out _ _ _ _ _ _ _ _ _ _ _ _ _ _

end Cert.ReferenceIdeal.RefSide

end
-- ==== Proof.lean ====
/-
  The certificate of a tree-structured LSTM cell: a kernel that computes, for 4096 nodes of 32 children each, the new hidden
  state and memory cell of every node (the first result, side by side) and the children's summed hidden states (the second),
  against the same cell written with whole-array operations.

  Both programs compute one function of the fourteen argument arrays over the extended reals (Proof/Spec.lean). The
  reference does so operation by operation (Proof/RefSide.lean, over its run read at an index): its logistic function is
  spelt `1 / (1 + e^(-x))`, which is what the logistic function IS on the extended reals. The kernel first joins the three
  node-level gates' weights row-wise and then works block by block: 64 nodes at a grid point, the node-level gates as one
  768-column product, the per-child forget gate as a product over the 2048 flattened (node, child) rows. Its frame — it
  runs to the end, faults nowhere, leaves its arguments alone, and leaves in each result array what its body stored block
  by block — is Proof/CellFrame.lean (at the word level, where no more is claimed, Proof/CellFrameBits.lean); what the body
  stores, read at an index, is Proof/BodyValue.lean; that each block is the specification's block is Proof/CellBlocks.lean and
  Proof/CellValue.lean. No law of arithmetic beyond reading both programs term by term is needed: the sums run over the same
  indices in the same order, a change of float format is the identity, and a matrix product into a zero accumulator, a lane
  sum from zero and the host's contraction are the same finite sums.
-/
import proofs.«173685_j4526895530471_2_alg».proof.Defs
import proofs.«173685_j4526895530471_2_alg».proof.Proof.Gen.Kernel
import proofs.«173685_j4526895530471_2_alg».proof.Proof.Gen.Kernel.Skeleton
import proofs.«173685_j4526895530471_2_alg».proof.Proof.Gen.Kernel.Launch
import proofs.«173685_j4526895530471_2_alg».proof.Proof.Gen.Kernel.Points
import proofs.«173685_j4526895530471_2_alg».proof.Proof.Gen.KernelIdeal
import proofs.«173685_j4526895530471_2_alg».proof.Proof.Gen.KernelIdeal.Skeleton
import proofs.«173685_j4526895530471_2_alg».proof.Proof.Gen.KernelIdeal.Launch
import proofs.«173685_j4526895530471_2_alg».proof.Proof.Gen.KernelIdeal.Points
import proofs.«173685_j4526895530471_2_alg».proof.Proof.Gen.ReferenceIdeal
import proofs.«173685_j4526895530471_2_alg».proof.Proof.Gen.ReferenceIdeal.Run
import proofs.«173685_j4526895530471_2_alg».proof.Proof.Gen.Pre_finite_inputs
import proofs.«173685_j4526895530471_2_alg».proof.Proof.CellFrame
import proofs.«173685_j4526895530471_2_alg».proof.Proof.CellFrameBits
import proofs.«173685_j4526895530471_2_alg».proof.Proof.CellValue
import proofs.«173685_j4526895530471_2_alg».proof.Proof.RefSide
import Idealize.ShloMosaic.Adequacy
import Idealize.ShloMosaic.Init

noncomputable section

namespace Cert.Proof

open Idealize.ShloMosaic Idealize.SL.Sem

/-- The word-level kernel runs to its end and leaves its arguments as given. -/
theorem frame_kernel : Cert.frame_Kernel := fun m ρ _ => Cert.Kernel.Cell.frame m ρ

/-- So does the kernel read over the extended reals. -/
theorem frame_kernelIdeal : Cert.frame_KernelIdeal := fun m ρ _ => Cert.KernelIdeal.Cell.frame m ρ

/-- The reference is a sequence of whole-array operations: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Reading the kernel over the extended reals rewrote none of its operations. -/
theorem preserves : Cert.preserves_Kernel_KernelIdeal := trivial

/-- From memories that agree on the arguments both programs end with the tree-LSTM cell of the arguments in their first
    result and the children's summed hidden states in their second. -/
theorem algebraic : Cert.algebraic_KernelIdeal_ReferenceIdeal := by
  intro m ρ m' ρ' _ hagree
  refine ⟨fun c => TreeCell.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => TreeCell.htilde (m ((c.tc : Thread Cert.KernelIdeal.nD Cert.KernelIdeal.τ).loc Cert.KernelIdeal.main_arg1)),
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13⟩ := hagree c
    rw [Cert.ReferenceIdeal.RefSide.out_eq, a0, a1, a2, a3, a4, a5, a6, a7, a8, a9, a10, a11, a12, a13]
  · rw [Cert.ReferenceIdeal.RefSide.htilde_eq, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
